-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4096x256 .f32) (main_arg1 : FVec F S4096x4096 .f32) (main_arg2 : FVec F S256x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x128 : Shape := ⟨2, ![256, 128]⟩
abbrev S4096x128 : Shape := ⟨2, ![4096, 128]⟩
abbrev S4096x2x128 : Shape := ⟨3, ![4096, 2, 128]⟩
abbrev S512x256 : Shape := ⟨2, ![512, 256]⟩
abbrev S512x128 : Shape := ⟨2, ![512, 128]⟩
abbrev S512x4096 : Shape := ⟨2, ![512, 4096]⟩
abbrev S512x2x128 : Shape := ⟨3, ![512, 2, 128]⟩
abbrev S512x1x128 : Shape := ⟨3, ![512, 1, 128]⟩

abbrev nBuf : Space → Nat
  | .hbm => 8
  | .vmem => 25
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x2x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .f32⟩
  | .local _ .vmem, ⟨4, _⟩ => ⟨S512x128, .f32⟩
  | .local _ .vmem, ⟨5, _⟩ => ⟨S512x4096, .f32⟩
  | .local _ .vmem, ⟨6, _⟩ => ⟨S512x4096, .f32⟩
  | .local _ .vmem, ⟨7, _⟩ => ⟨S4096x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x4096, .f32⟩
  | .local _ .vmem, ⟨15, _⟩ => ⟨S512x4096, .f32⟩
  | .local _ .vmem, ⟨16, _⟩ => ⟨S4096x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x2x128, .f32⟩
  | .local _ .vmem, ⟨24, _⟩ => ⟨S512x2x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0_1 : Ref sig .tc := ⟨.hbm, 5, rfl⟩
abbrev main_v0_2 : Ref sig .tc := ⟨.hbm, 6, rfl⟩
abbrev main_v0_0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S512x128_S512x128 : S512x128.ShapeCasts S512x128
  inb_S512x2x128_S512x1x128_0_0_0 : ∀ a, (![0, 0, 0] : Fin 3 → Nat) a + S512x1x128.size a ≤ S512x2x128.size a
  h_S512x1x128 : 0 < S512x1x128.numel
  shapeCasts_S512x1x128_S512x128 : S512x1x128.ShapeCasts S512x128
  shapeCasts_S512x128_S512x1x128 : S512x128.ShapeCasts S512x1x128
  inb_S512x2x128_S512x1x128_0_1_0 : ∀ a, (![0, 1, 0] : Fin 3 → Nat) a + S512x1x128.size a ≤ S512x2x128.size a
  dot_S512x256_S256x128_S512x128_1_0_0_1_n_n_wf : DotDims.WF S512x256 S256x128 S512x128 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S4096x128.size a
  hwx2_2 : ∀ i : grid2.Coords, EltTy.bits .f32 = 32 ∨ (Rect.block (s := S4096x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S4096x128.size a
  hwx2_3 : ∀ i : grid2.Coords, EltTy.bits .f32 = 32 ∨ (Rect.block (s := S4096x128) S512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S4096x128.size a
  hwx2_4 : ∀ i : grid2.Coords, EltTy.bits .f32 = 32 ∨ (Rect.block (s := S4096x128) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2x128.size a ≤ S4096x2x128.size a
  hwx2_5 : ∀ i : grid2.Coords, EltTy.bits .f32 = 32 ∨ (Rect.block (s := S4096x2x128) S512x2x128.size (cc2_transform_5 i) (hinb2_5 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1_0) S512x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1_0) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0_2) S512x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0_0) S512x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S4096x128 : Shape := ⟨2, ![4096, 128]⟩
abbrev S_ : Shape := ⟨0, ![]⟩
abbrev S4096x1x128 : Shape := ⟨3, ![4096, 1, 128]⟩
abbrev S4096x2x128 : Shape := ⟨3, ![4096, 2, 128]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x128, .f32⟩
  | .hbm, ⟨16, _⟩ => ⟨S4096x4096, .f32⟩
  | .hbm, ⟨17, _⟩ => ⟨S4096x4096, .f32⟩
  | .hbm, ⟨18, _⟩ => ⟨S4096x128, .f32⟩
  | .hbm, ⟨19, _⟩ => ⟨S4096x1x128, .f32⟩
  | .hbm, ⟨20, _⟩ => ⟨S4096x1x128, .f32⟩
  | .hbm, ⟨21, _⟩ => ⟨S4096x2x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S_S4096x4096 : S_.BroadcastsInDim S4096x4096 (![] : Fin 0 → Fin S4096x4096.rank)
  bcast_S4096x128_S4096x1x128_0_2 : S4096x128.BroadcastsInDim S4096x1x128 (![0, 2] : Fin 2 → Fin S4096x1x128.rank)
  concatenates_S4096x1x128_S4096x1x128_S4096x2x128_d1 : Shape.Concatenates [S4096x1x128, S4096x1x128] S4096x2x128 1
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x4096_S4096x4096_S4096x4096_1_0_0_1_n_n_wf : DotDims.WF S4096x4096 S4096x4096 S4096x4096 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The mathematics of this certificate, free of any program: over the extended reals, with
  x : 4096×256, a : 4096×4096, w : 256×128,
    support x w (i, j) = max (Σ_k x(i,k) · w(k,j)) 0,
    prod a s (i, j)    = Σ_k a(i,k) · s(k,j),
    low a s            = prod a s + s,
    mid a s            = prod a (prod a s) − s,
  the forms the three blocked passes compute, and the forms a dense evaluation computes,
    lowR a s (i, j) = Σ_k (a(i,k) + δ(i,k)) · s(k,j),
    midR a s (i, j) = Σ_k ((Σ_l a(i,l) · a(l,k)) − δ(i,k)) · s(k,j),
  with δ the identity matrix. On finite entries the two pairs agree (Algebra.lean): the product
  distributes over the sum with δ, and the triple sum re-associates.
-/
import Idealize.ShloMosaic.PureOps.Ideal
import Idealize.ShloMosaic.Lib.ValueIdx

noncomputable section

namespace Cert.Spec

open Idealize.ShloMosaic Idealize.ShloMosaic.ValueIdx

/-- The shapes of the three arguments, of a 4096×128 result and of the stacked 4096×2×128 result. -/
abbrev SF : Shape := ⟨2, ![4096, 256]⟩
abbrev SA : Shape := ⟨2, ![4096, 4096]⟩
abbrev SW : Shape := ⟨2, ![256, 128]⟩
abbrev SO : Shape := ⟨2, ![4096, 128]⟩
abbrev SC : Shape := ⟨3, ![4096, 2, 128]⟩

/-- A 4096×128 matrix by coordinates. -/
abbrev Mat : Type := Fin 4096 → Fin 128 → EReal

/-- relu (x · w), entry by entry. -/
def support (x : SF.Idx → EReal) (w : SW.Idx → EReal) : Mat :=
  fun i j => max (∑ k : Fin 256, x (ix2 i k) * w (ix2 k j)) 0

/-- a · s, entry by entry. -/
def prod (a : SA.Idx → EReal) (s : Mat) : Mat :=
  fun i j => ∑ k : Fin 4096, a (ix2 i k) * s k j

/-- a · s + s. -/
def low (a : SA.Idx → EReal) (s : Mat) : Mat := fun i j => prod a s i j + s i j

/-- a · (a · s) − s. -/
def mid (a : SA.Idx → EReal) (s : Mat) : Mat := fun i j => prod a (prod a s) i j - s i j

/-- The identity matrix. -/
def eye (i k : Fin 4096) : EReal := if i = k then 1 else 0

/-- (a + I) · s, the dense form. -/
def lowR (a : SA.Idx → EReal) (s : Mat) : Mat :=
  fun i j => ∑ k : Fin 4096, (a (ix2 i k) + eye i k) * s k j

/-- (a · a − I) · s, the dense form. -/
def midR (a : SA.Idx → EReal) (s : Mat) : Mat :=
  fun i j => ∑ k : Fin 4096, ((∑ l : Fin 4096, a (ix2 i l) * a (ix2 l k)) - eye i k) * s k j

/-- A matrix as an array over the 4096×128 shape. -/
def arr (f : Mat) : SO.Idx → EReal := fun q => f (q 0) (q 1)

/-- An array over the 4096×128 shape as a matrix. -/
def mat (f : SO.Idx → EReal) : Mat := fun i j => f (ix2 i j)

/-- a · t − s, the third pass's form over a given t. -/
def midK (a : SA.Idx → EReal) (t s : Mat) : Mat := fun i j => prod a t i j - s i j

theorem mid_eq_midK (a : SA.Idx → EReal) (s : Mat) : mid a s = midK a (prod a s) s := rfl

theorem mat_arr (f : Mat) : mat (arr f) = f := rfl

/-- Two matrices stacked along a new middle axis of extent 2. -/
def cat (lo mi : Mat) : SC.Idx → EReal := fun q => if (q 1).val = 0 then lo (q 0) (q 2) else mi (q 0) (q 2)

/-- Every entry of an array is a real number. -/
def Fin2 {S : Shape} (f : S.Idx → EReal) : Prop := ∀ q, ∃ r : ℝ, f q = (r : EReal)

/-- Every entry of a matrix is a real number. -/
def FinM (s : Mat) : Prop := ∀ i j, ∃ r : ℝ, s i j = (r : EReal)

end Cert.Spec

end
-- ==== Proof.Algebra.lean ====
/-
  The two dense forms agree with the blocked forms on finite entries.

  Every entry of a, s, x, w being a real number, each expression of Spec.lean is the image of the
  same expression over ℝ (the inclusion ℝ → EReal commutes with products, finite sums, differences
  and max), and over ℝ the identities are ring identities:
    Σ_k (a(i,k) + δ(i,k)) · s(k,j) = Σ_k a(i,k) · s(k,j) + s(i,j),
    Σ_k ((Σ_l a(i,l) · a(l,k)) − δ(i,k)) · s(k,j) = Σ_l a(i,l) · (Σ_k a(l,k) · s(k,j)) − s(i,j).
  Over the extended reals themselves the product does not distribute over a sum with an infinite
  term, which is why the entries are required finite.
-/
import proofs.«106258_g65609920414006_cont_sun_m_687_6_alg».proof.Proof.Spec
import Mathlib.Data.EReal.Basic
import Mathlib.Algebra.BigOperators.Ring.Finset
import Mathlib.Tactic.Ring

noncomputable section

namespace Cert.Spec

open Idealize.ShloMosaic Idealize.ShloMosaic.ValueIdx

/-- The inclusion ℝ → EReal commutes with finite sums. -/
theorem coe_sum {ι : Type} (t : Finset ι) (f : ι → ℝ) :
    ((∑ k ∈ t, f k : ℝ) : EReal) = ∑ k ∈ t, (f k : EReal) := by
  classical
  induction t using Finset.induction_on with
  | empty => simp
  | insert b t hb ih => rw [Finset.sum_insert hb, Finset.sum_insert hb, EReal.coe_add, ih]

/-- The inclusion ℝ → EReal is monotone, so it commutes with max. -/
theorem coe_max (p q : ℝ) : ((max p q : ℝ) : EReal) = max (p : EReal) (q : EReal) :=
  EReal.coe_strictMono.monotone.map_max

/-- Over ℝ: (a + I) · s = a · s + s, entry by entry. -/
theorem real_low {n m : Nat} (a : Fin n → Fin n → ℝ) (s : Fin n → Fin m → ℝ) (i : Fin n) (j : Fin m) :
    ∑ k, (a i k + (if i = k then (1 : ℝ) else 0)) * s k j = ∑ k, a i k * s k j + s i j := by
  simp only [add_mul, Finset.sum_add_distrib, ite_mul, one_mul, zero_mul, Finset.sum_ite_eq,
    Finset.mem_univ, if_true]

/-- Over ℝ: (a · a − I) · s = a · (a · s) − s, entry by entry. -/
theorem real_mid {n m : Nat} (a : Fin n → Fin n → ℝ) (s : Fin n → Fin m → ℝ) (i : Fin n) (j : Fin m) :
    ∑ k, ((∑ l, a i l * a l k) - (if i = k then (1 : ℝ) else 0)) * s k j
      = ∑ l, a i l * (∑ k, a l k * s k j) - s i j := by
  simp only [sub_mul, Finset.sum_sub_distrib, ite_mul, one_mul, zero_mul, Finset.sum_ite_eq,
    Finset.mem_univ, if_true]
  refine congrArg (fun r => r - s i j) ?_
  simp only [Finset.sum_mul, Finset.mul_sum]
  rw [Finset.sum_comm]
  exact Finset.sum_congr rfl fun l _ => Finset.sum_congr rfl fun k _ => mul_assoc _ _ _

/-- The identity matrix has real entries. -/
theorem eye_coe (i k : Fin 4096) : eye i k = ((if i = k then (1 : ℝ) else 0 : ℝ) : EReal) := by
  unfold eye
  split <;> simp

theorem support_fin (x : SF.Idx → EReal) (w : SW.Idx → EReal) (hx : Fin2 x) (hw : Fin2 w) :
    FinM (support x w) := by
  choose x' hx' using hx
  choose w' hw' using hw
  intro i j
  refine ⟨max (∑ k : Fin 256, x' (ix2 i k) * w' (ix2 k j)) 0, ?_⟩
  unfold support
  simp only [hx', hw']
  rw [coe_max, coe_sum, EReal.coe_zero]
  simp only [EReal.coe_mul]

theorem prod_fin (a : SA.Idx → EReal) (s : Mat) (ha : Fin2 a) (hs : FinM s) : FinM (prod a s) := by
  choose a' ha' using ha
  choose s' hs' using hs
  intro i j
  refine ⟨∑ k : Fin 4096, a' (ix2 i k) * s' k j, ?_⟩
  unfold prod
  simp only [ha', hs']
  rw [coe_sum]
  simp only [EReal.coe_mul]

theorem lowR_eq_low (a : SA.Idx → EReal) (s : Mat) (ha : Fin2 a) (hs : FinM s) :
    lowR a s = low a s := by
  choose a' ha' using ha
  choose s' hs' using hs
  funext i j
  have h := congrArg (fun r : ℝ => (r : EReal)) (real_low (fun i k => a' (ix2 i k)) s' i j)
  simp only [coe_sum, EReal.coe_add, EReal.coe_mul] at h
  unfold lowR low prod
  simp only [ha', hs', eye_coe]
  exact h

theorem midR_eq_mid (a : SA.Idx → EReal) (s : Mat) (ha : Fin2 a) (hs : FinM s) :
    midR a s = mid a s := by
  choose a' ha' using ha
  choose s' hs' using hs
  funext i j
  have h := congrArg (fun r : ℝ => (r : EReal)) (real_mid (fun i k => a' (ix2 i k)) s' i j)
  simp only [coe_sum, EReal.coe_sub, EReal.coe_mul] at h
  unfold midR mid prod
  simp only [ha', hs', eye_coe]
  exact h

end Cert.Spec

end
-- ==== Proof.Finite.lean ====
/-
  The precondition read back: it is the conjunction, over the three arguments and over every index,
  of |v(q)| < +∞. The conjunction of all entries of an array equal to 1 makes every entry 1; an
  entry's comparison being 1 says max v (−v) < ⊤ in the extended reals, which excludes v = ⊤ and
  v = ⊥ (for both, max v (−v) = ⊤), so v is a real number.
-/
import proofs.«106258_g65609920414006_cont_sun_m_687_6_alg».proof.Pre_finite_inputs
import proofs.«106258_g65609920414006_cont_sun_m_687_6_alg».proof.Proof.Gen.Pre_finite_inputs
import proofs.«106258_g65609920414006_cont_sun_m_687_6_alg».proof.Proof.Spec
import Idealize.ShloMosaic.Lib.ReduceAll
import Idealize.ShloMosaic.PureOps.Ideal

noncomputable section

namespace Cert.Spec

open Idealize.ShloMosaic Idealize.ShloMosaic.ValueIdx

/-- The pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt (v : EReal) (h : Ideal.cmp .olt (max v (-v)) (Ideal.ofBits .f32 0x7F800000#32) = 1#1) :
    ∃ r : ℝ, v = (r : EReal) := by
  rw [inf_bits] at h
  induction v using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- The three arguments have real entries: each conjunct of the predicate is the conjunction, over
    every index q, of |v q| < +∞. -/
theorem fin_of_pre [Cert.Pre_finite_inputs.Facts]
    (x : FVec Ideal Cert.Pre_finite_inputs.S4096x256 .f32)
    (a : FVec Ideal Cert.Pre_finite_inputs.S4096x4096 .f32)
    (w : FVec Ideal Cert.Pre_finite_inputs.S256x128 .f32)
    (h : Cert.Pre_finite_inputs.fn (F := Ideal) x a w = fun _ => 1#1) :
    Fin2 (S := SF) x ∧ Fin2 (S := SA) a ∧ Fin2 (S := SW) w := by
  have e := congrFun h ix0
  dsimp only [Cert.Pre_finite_inputs.fn] at e
  simp only [andi] at e
  rw [IntOp.andi_eq_one, IntOp.andi_eq_one] at e
  obtain ⟨⟨e1, e2⟩, e3⟩ := e
  refine ⟨fun q => ?_, fun q => ?_, fun q => ?_⟩
  · exact real_of_abs_lt _ (Host.reduce_andi_all _ _ _ _ ix0 e1 q)
  · exact real_of_abs_lt _ (Host.reduce_andi_all _ _ _ _ ix0 e2 q)
  · exact real_of_abs_lt _ (Host.reduce_andi_all _ _ _ _ ix0 e3 q)

end Cert.Spec

end
-- ==== Proof.RefValue.lean ====
/-
  What the dense evaluation computes, read index by index over the extended reals: its three results
  are the dense forms of the specification,
    the first 4096×128 result  (i, j) ↦ Σ_k (a(i,k) + δ(i,k)) · s(k,j),
    the second 4096×128 result (i, j) ↦ Σ_k ((Σ_l a(i,l) · a(l,k)) − δ(i,k)) · s(k,j),
    the stacked 4096×2×128 result the two of them along the middle axis,
  with s(i,j) = max (Σ_k x(i,k) · w(k,j)) 0 and δ the identity matrix, which the program builds as
  "row number equals column number" converted to a number: 1 on the diagonal, 0 off it.
-/
import proofs.«106258_g65609920414006_cont_sun_m_687_6_alg».proof.Proof.Gen.ReferenceIdeal.Read
import proofs.«106258_g65609920414006_cont_sun_m_687_6_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.SL.Sem Idealize.ShloMosaic.StableHlo Idealize.ShloMosaic.ValueIdx

/-! ## The identity matrix -/

/-- Two numbers below 4096 are equal as 32-bit words exactly when they are equal. -/
theorem ofNat_eq_iff (i k : Fin 4096) : BitVec.ofNat 32 i.val = BitVec.ofNat 32 k.val ↔ i = k := by
  constructor
  · intro h
    have h2 := congrArg BitVec.toNat h
    simp only [BitVec.toNat_ofNat] at h2
    have hi := i.isLt
    have hk := k.isLt
    exact Fin.ext (by omega)
  · rintro rfl; rfl

/-- "Row number plus zero equals column number", converted to a number, is the identity matrix's entry. -/
theorem eye_word (i k : Fin 4096) :
    FloatOps.uitofp (F := Ideal) .f32
      (IntOp.cmpi .eq (IntOp.addi (BitVec.ofNat 32 i.val) 0#32) (BitVec.ofNat 32 k.val)) = eye i k := by
  unfold eye
  have h0 : IntOp.addi (BitVec.ofNat 32 i.val) 0#32 = BitVec.ofNat 32 i.val := by
    unfold IntOp.addi; exact BitVec.add_zero _
  rw [h0]
  by_cases h : i = k
  · subst h
    rw [if_pos rfl]
    show (((IntOp.cmpi .eq (BitVec.ofNat 32 i.val) (BitVec.ofNat 32 i.val)).toNat : ℝ) : EReal) = 1
    have : IntOp.cmpi .eq (BitVec.ofNat 32 i.val) (BitVec.ofNat 32 i.val) = 1#1 := by
      unfold IntOp.cmpi; simp
    rw [this]; simp
  · rw [if_neg h]
    show (((IntOp.cmpi .eq (BitVec.ofNat 32 i.val) (BitVec.ofNat 32 k.val)).toNat : ℝ) : EReal) = 0
    have : IntOp.cmpi .eq (BitVec.ofNat 32 i.val) (BitVec.ofNat 32 k.val) = 0#1 := by
      unfold IntOp.cmpi
      have hne : BitVec.ofNat 32 i.val ≠ BitVec.ofNat 32 k.val := fun e => h ((ofNat_eq_iff i k).1 e)
      show BitVec.ofBool (BitVec.ofNat 32 i.val == BitVec.ofNat 32 k.val) = 0#1
      rw [beq_eq_false_iff_ne.2 hne]; rfl
    rw [this]; simp

/-- The converted comparison of the two counters is the identity matrix. -/
theorem v7_apply (i k : Fin 4096) : val_main_v7 (F := Ideal) (ix2 i k) = eye i k := by
  rw [val_main_v7_apply, val_main_v6_apply, val_main_v5_apply, val_main_v2_apply, val_main_v4_apply,
    val_main_c_apply, val_main_v3_apply]
  exact eye_word i k

/-! ## The rectified product x · w -/

/-- The rectified product at an index is the specification's. -/
theorem v1_apply (x : (⟨S4096x256, .f32⟩ : BufTy).Contents (Elt Ideal)) (w : (⟨S256x128, .f32⟩ : BufTy).Contents (Elt Ideal))
    (i : Fin 4096) (j : Fin 128) : val_main_v1 (F := Ideal) x w (ix2 i j) = support x w i j := by
  rw [val_main_v1_apply, val_main_v0_apply, val_main_call0_v0_apply, val_main_call0_cst_apply,
    Ideal.maximumf_def, Ideal.ofBits_def, Ideal.ofBits_zero_f32]
  unfold support
  have el : ∀ k : Fin 256, lidx_main_v0 (ix2 i j) k = ix2 i k := fun k => funext fun a => Fin.ext (by
    match a with | ⟨0, _⟩ => rfl | ⟨1, _⟩ => rfl)
  have er : ∀ k : Fin 256, ridx_main_v0 (ix2 i j) k = ix2 k j := fun k => funext fun a => Fin.ext (by
    match a with | ⟨0, _⟩ => rfl | ⟨1, _⟩ => rfl)
  simp only [el, er]

/-! ## The two dense products -/

/-- The product of (a + δ) with the rectified product is the first dense form. -/
theorem v9_apply (x : (⟨S4096x256, .f32⟩ : BufTy).Contents (Elt Ideal)) (a : (⟨S4096x4096, .f32⟩ : BufTy).Contents (Elt Ideal))
    (w : (⟨S256x128, .f32⟩ : BufTy).Contents (Elt Ideal)) (i : Fin 4096) (j : Fin 128) :
    val_main_v9 (F := Ideal) x a w (ix2 i j) = lowR a (support x w) i j := by
  rw [val_main_v9_apply]
  unfold lowR
  refine Finset.sum_congr rfl fun k _ => ?_
  have el : lidx_main_v9 (ix2 i j) k = ix2 i k := funext fun b => Fin.ext (by
    match b with | ⟨0, _⟩ => rfl | ⟨1, _⟩ => rfl)
  have er : ridx_main_v9 (ix2 i j) k = ix2 k j := funext fun b => Fin.ext (by
    match b with | ⟨0, _⟩ => rfl | ⟨1, _⟩ => rfl)
  rw [el, er, val_main_v8_apply, v7_apply, v1_apply, Ideal.addf_def]

/-- The product of (a · a − δ) with the rectified product is the second dense form. -/
theorem v12_apply (x : (⟨S4096x256, .f32⟩ : BufTy).Contents (Elt Ideal)) (a : (⟨S4096x4096, .f32⟩ : BufTy).Contents (Elt Ideal))
    (w : (⟨S256x128, .f32⟩ : BufTy).Contents (Elt Ideal)) (i : Fin 4096) (j : Fin 128) :
    val_main_v12 (F := Ideal) x a w (ix2 i j) = midR a (support x w) i j := by
  rw [val_main_v12_apply]
  unfold midR
  refine Finset.sum_congr rfl fun k _ => ?_
  have el : lidx_main_v12 (ix2 i j) k = ix2 i k := funext fun b => Fin.ext (by
    match b with | ⟨0, _⟩ => rfl | ⟨1, _⟩ => rfl)
  have er : ridx_main_v12 (ix2 i j) k = ix2 k j := funext fun b => Fin.ext (by
    match b with | ⟨0, _⟩ => rfl | ⟨1, _⟩ => rfl)
  rw [el, er, val_main_v11_apply, val_main_v10_apply, v7_apply, v1_apply, Ideal.subf_def]
  have el2 : ∀ l : Fin 4096, lidx_main_v10 (ix2 i k) l = ix2 i l := fun l => funext fun b => Fin.ext (by
    match b with | ⟨0, _⟩ => rfl | ⟨1, _⟩ => rfl)
  have er2 : ∀ l : Fin 4096, ridx_main_v10 (ix2 i k) l = ix2 l k := fun l => funext fun b => Fin.ext (by
    match b with | ⟨0, _⟩ => rfl | ⟨1, _⟩ => rfl)
  simp only [el2, er2]

/-- The first 4096×128 result is the first dense form, as an array. -/
theorem v9_eq (x : (⟨S4096x256, .f32⟩ : BufTy).Contents (Elt Ideal)) (a : (⟨S4096x4096, .f32⟩ : BufTy).Contents (Elt Ideal))
    (w : (⟨S256x128, .f32⟩ : BufTy).Contents (Elt Ideal)) :
    val_main_v9 (F := Ideal) x a w = arr (lowR a (support x w)) := by
  funext q
  rw [eq_ix2 q]
  exact v9_apply x a w (q 0) (q 1)

/-- The second 4096×128 result is the second dense form, as an array. -/
theorem v12_eq (x : (⟨S4096x256, .f32⟩ : BufTy).Contents (Elt Ideal)) (a : (⟨S4096x4096, .f32⟩ : BufTy).Contents (Elt Ideal))
    (w : (⟨S256x128, .f32⟩ : BufTy).Contents (Elt Ideal)) :
    val_main_v12 (F := Ideal) x a w = arr (midR a (support x w)) := by
  funext q
  rw [eq_ix2 q]
  exact v12_apply x a w (q 0) (q 1)

/-! ## The stacked result -/

/-- The stack at middle coordinate 0 is its first matrix. -/
theorem cat_zero (lo mi : Mat) (i : Fin 4096) (j : Fin 128) : cat lo mi (ix3 i (0 : Fin 2) j) = lo i j := rfl
/-- The stack at middle coordinate 1 is its second matrix. -/
theorem cat_one (lo mi : Mat) (i : Fin 4096) (j : Fin 128) : cat lo mi (ix3 i (1 : Fin 2) j) = mi i j := rfl

/-- The stacked result is the two dense forms along the middle axis. -/
theorem v15_eq (x : (⟨S4096x256, .f32⟩ : BufTy).Contents (Elt Ideal)) (a : (⟨S4096x4096, .f32⟩ : BufTy).Contents (Elt Ideal))
    (w : (⟨S256x128, .f32⟩ : BufTy).Contents (Elt Ideal)) :
    val_main_v15 (F := Ideal) x a w = cat (lowR a (support x w)) (midR a (support x w)) := by
  funext q
  obtain ⟨i, b, j, rfl⟩ : ∃ (i : Fin 4096) (b : Fin 2) (j : Fin 128), q = ix3 i b j := ⟨q 0, q 1, q 2, eq_ix3 q⟩
  unfold val_main_v15
  have hx : idx_main_v13 (ix3 i (0 : Fin 1) j) = ix2 i j := funext fun d => Fin.ext (by
    match d with | ⟨0, _⟩ => rfl | ⟨1, _⟩ => rfl)
  have hy : idx_main_v14 (ix3 i (0 : Fin 1) j) = ix2 i j := funext fun d => Fin.ext (by
    match d with | ⟨0, _⟩ => rfl | ⟨1, _⟩ => rfl)
  match b with
  | ⟨0, _⟩ =>
    refine (concatenate_pair_apply_left _ _ _ concatenates_S4096x1x128_S4096x1x128_S4096x2x128_d1
      (ix3 i (0 : Fin 2) j) rfl (ix3 i (0 : Fin 1) j) ?_).trans ?_
    · intro d; match d with | ⟨0, _⟩ => rfl | ⟨1, _⟩ => rfl | ⟨2, _⟩ => rfl
    · rw [val_main_v13_apply, hx, v9_apply]; exact (cat_zero _ _ i j).symm
  | ⟨1, _⟩ =>
    refine (concatenate_pair_apply_right _ _ _ concatenates_S4096x1x128_S4096x1x128_S4096x2x128_d1
      (ix3 i (1 : Fin 2) j) rfl rfl (ix3 i (0 : Fin 1) j) ?_ ?_).trans ?_
    · intro d hd; match d, hd with
      | ⟨0, _⟩, _ => rfl
      | ⟨1, _⟩, hd => exact absurd rfl hd
      | ⟨2, _⟩, _ => rfl
    · rfl
    · rw [val_main_v14_apply, hy, v12_apply]; exact (cat_one _ _ i j).symm

/-! ## The run -/

/-- Every weakly fair execution of the dense evaluation ends with its three results at the dense forms of the
    specification, of the arguments the memory held at the start, and with the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = cat (lowR (m ((c.tc : Thread nD τ).loc main_arg1)) (support (m ((c.tc : Thread nD τ).loc main_arg0)) (m ((c.tc : Thread nD τ).loc main_arg2))))
              (midR (m ((c.tc : Thread nD τ).loc main_arg1)) (support (m ((c.tc : Thread nD τ).loc main_arg0)) (m ((c.tc : Thread nD τ).loc main_arg2))))
      ∧ r.2.mem ((c.tc : Thread nD τ).loc main_v9)
        = arr (lowR (m ((c.tc : Thread nD τ).loc main_arg1)) (support (m ((c.tc : Thread nD τ).loc main_arg0)) (m ((c.tc : Thread nD τ).loc main_arg2))))
      ∧ r.2.mem ((c.tc : Thread nD τ).loc main_v12)
        = arr (midR (m ((c.tc : Thread nD τ).loc main_arg1)) (support (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((val_main_v15_eq (F := Ideal) (m ((c.tc : Thread nD τ).loc main_arg0)) (m ((c.tc : Thread nD τ).loc main_arg1)) (m ((c.tc : Thread nD τ).loc main_arg2))).trans (v15_eq _ _ _)),
       (h c).2.1.trans ((val_main_v9_eq (F := Ideal) (m ((c.tc : Thread nD τ).loc main_arg0)) (m ((c.tc : Thread nD τ).loc main_arg1)) (m ((c.tc : Thread nD τ).loc main_arg2))).trans (v9_eq _ _ _)),
       (h c).2.2.1.trans ((val_main_v12_eq (F := Ideal) (m ((c.tc : Thread nD τ).loc main_arg0)) (m ((c.tc : Thread nD τ).loc main_arg1)) (m ((c.tc : Thread nD τ).loc main_arg2))).trans (v12_eq _ _ _)),
       (h c).2.2.2⟩)
    (Cert.ReferenceIdeal.Value.run (F := Ideal) m ρ)

end Cert.ReferenceIdeal.RefValue

end
-- ==== Proof.RefFrame.lean ====
/-
  The dense evaluation runs to its end from any memory, faults nowhere, and leaves its three arguments as
  they were: read off its run, whose final state has every argument at its starting contents.
-/
import proofs.«106258_g65609920414006_cont_sun_m_687_6_alg».proof.Defs
import proofs.«106258_g65609920414006_cont_sun_m_687_6_alg».proof.Proof.Gen.ReferenceIdeal.Run
import proofs.«106258_g65609920414006_cont_sun_m_687_6_alg».proof.Proof.Gen.Pre_finite_inputs

noncomputable section

namespace Cert.ReferenceIdeal.RefValue

open Idealize.ShloMosaic Idealize.ShloMosaic.TcCoe Idealize.SL.Sem

/-- The frame of the dense evaluation: the last three conjuncts of its run's final state. -/
theorem frame_ri : Cert.frame_ReferenceIdeal := fun m ρ _ =>
  (θ_run Cert.ReferenceIdeal.defs _ _).mono (fun _ h c => (h c).2.2.2)
    (Cert.ReferenceIdeal.Value.run (F := Ideal) m ρ)

end Cert.ReferenceIdeal.RefValue

end
-- ==== Proof.KI.Reg0.lean ====
import proofs.«106258_g65609920414006_cont_sun_m_687_6_alg».proof.Proof.Gen.KernelIdeal.Launch
import proofs.«106258_g65609920414006_cont_sun_m_687_6_alg».proof.Proof.Gen.KernelIdeal.Skeleton
import proofs.«106258_g65609920414006_cont_sun_m_687_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The first kernel (feature block times weights, then the positive part), at the entry contents `V`

Windows: 0 the feature block (512 x 256, input), 1 the weights (256 x 128, input, the same block at every point),
2 the block of the result (512 x 128, output). -/

/-! ## The windows' blocks -/

/-- Window `w`'s block at grid point `t`: the window's rectangle at `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the window's block at every grid point, whether or not the block was brought
    in at that point: where it was not, the block index has not moved since the point before, and the body left the
    block in place. For any proof data whose array is `V`'s (`hA`) and whose body keeps the block (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, whose block index is constant: it is brought in at the first point only, and holds
    the whole weight matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_0 : Rect S512x256 := Rect.unit (s := S512x256) ![0, 0] S512x256.size inb_S512x256_S512x256_0_0
abbrev r0_1 : Rect S256x128 := Rect.unit (s := S256x128) ![0, 0] S256x128.size inb_S256x128_S256x128_0_0
abbrev r0_2 : Rect S512x128 := Rect.unit (s := S512x128) ![0, 0] S512x128.size inb_S512x128_S512x128_0_0

/-! ## What the body leaves in the output window's buffer -/

/-- Window 2's buffer after the body, as a function of the two input blocks: the one whole-buffer store of the
    positive part of the product. -/
def out0_2 (x0 : Vec F S512x256 .f32) (x1 : Vec F S256x128 .f32) : Vec F S512x128 .f32 :=
  View.canon [⟨r0_2, k0_pay1 (View.ld x0 r0_0) (View.ld x1 r0_1)⟩]

/-- The store's rectangle is the whole buffer, so every index is covered. -/
theorem cover0_2 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-! ## The body's triple -/

/-- The body on whole buffers, the inputs' reading `x0`, `x1` and the output's holding anything, runs to the
    continuation with the inputs' unchanged and the output's reading `out0_2 x0 x1`. The body also reads the output
    buffer before storing into it; that value is not used. -/
theorem sound_kernel0 (c : Dev nD) (E : Set ℕ) (i : grid0.Coords) (arg1 : Memref sig .tc .vmem S512x256 .f32) (harg1 : arg1.IsWhole) (arg2 : Memref sig .tc .vmem S256x128 .f32) (harg2 : arg2.IsWhole) (arg3 : Memref sig .tc .vmem S512x128 .f32) (harg3 : arg3.IsWhole)
    (x0 : Vec F S512x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at `out0_2` of the input blocks; the invariant says the rest of
    the core's state is untouched; nothing is owed; every window holds its array in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region's entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«106258_g65609920414006_cont_sun_m_687_6_alg».proof.Proof.Gen.KernelIdeal.Launch
import proofs.«106258_g65609920414006_cont_sun_m_687_6_alg».proof.Proof.Gen.KernelIdeal.Skeleton
import proofs.«106258_g65609920414006_cont_sun_m_687_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The second kernel (adjacency block times the whole support, and that product plus the support block), at the entry contents `V`

Windows: 0 the adjacency block (512 x 4096, input), 1 the support whole (4096 x 128, input, the same block at every
point), 2 the support block (512 x 128, input), 3 the block of the product (512 x 128, output), 4 the block of the
product plus the support block (512 x 128, output). Windows 1 and 2 read one array. -/

/-! ## The windows' blocks -/

/-- Window `w`'s block at grid point `t`: the window's rectangle at `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every grid point, whether or not the block was brought
    in at that point: where it was not, the block index has not moved since the point before, and the body left the
    block in place. For any proof data whose array is `V`'s (`hA`) and whose body keeps the block (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, whose block index is constant: it is brought in at the first point only, and holds
    the whole support at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_0 : Rect S512x4096 := Rect.unit (s := S512x4096) ![0, 0] S512x4096.size inb_S512x4096_S512x4096_0_0
abbrev r1_1 : Rect S4096x128 := Rect.unit (s := S4096x128) ![0, 0] S4096x128.size inb_S4096x128_S4096x128_0_0
abbrev r1_2 : Rect S512x128 := Rect.unit (s := S512x128) ![0, 0] S512x128.size inb_S512x128_S512x128_0_0

/-! ## What the body leaves in each output window's buffer -/

/-- Window 3's buffer after the body, as a function of input blocks 0 and 1: the one whole-buffer store of the product. -/
def out1_3 (x0 : Vec F S512x4096 .f32) (x1 : Vec F S4096x128 .f32) : Vec F S512x128 .f32 :=
  View.canon [⟨r1_2, k1_pay1 (View.ld x0 r1_0) (View.ld x1 r1_1)⟩]

/-- The store's rectangle is the whole buffer, so every index is covered. -/
theorem cover1_3 (p0 : Vec F S512x128 .f32) (y : S512x128.Idx) :
    ∃ pc ∈ ([⟨r1_2, p0⟩] : List (View.Piece (Elt F) S512x128 .f32)), y ∈ pc.1.set :=
  View.cover_of_tiled [⟨r1_2, p0⟩] S512x128.size (by rfl) y

/-- Window 4's buffer after the body, as a function of the three input blocks: the one whole-buffer store of the
    product plus the support block. -/
def out1_4 (x0 : Vec F S512x4096 .f32) (x1 : Vec F S4096x128 .f32) (x2 : Vec F S512x128 .f32) : Vec F S512x128 .f32 :=
  View.canon [⟨r1_2, k1_pay2 (View.ld x0 r1_0) (View.ld x1 r1_1) (View.ld x2 r1_2)⟩]

/-- The store's rectangle is the whole buffer, so every index is covered. -/
theorem cover1_4 (p0 : Vec F S512x128 .f32) (y : S512x128.Idx) :
    ∃ pc ∈ ([⟨r1_2, p0⟩] : List (View.Piece (Elt F) S512x128 .f32)), y ∈ pc.1.set :=
  View.cover_of_tiled [⟨r1_2, p0⟩] S512x128.size (by rfl) y

/-! ## The body's triple -/

/-- The body on whole buffers, the inputs' reading `x0`, `x1`, `x2` and the outputs' holding anything, runs to the
    continuation with the inputs' unchanged and the outputs' reading `out1_3`, `out1_4` of the inputs. The body also
    reads each output buffer before storing into it; those values are not used. -/
theorem sound_kernel1 (c : Dev nD) (E : Set ℕ) (i : grid1.Coords) (arg1 : Memref sig .tc .vmem S512x4096 .f32) (harg1 : arg1.IsWhole) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (x0 : Vec F S512x4096 .f32) (x1 : Vec F S4096x128 .f32) (x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__pass1_body i arg1 harg1 arg2 harg2 arg3 harg3 arg4 harg4 arg5 harg5) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the second pipeline on core `c`: the arrays as the region finds them; after the body at point
    `t` each input's buffer at its block and each output's at `out1_3`, `out1_4` of the input blocks; the invariant
    says the rest of the core's state is untouched; nothing is owed. Windows 1 and 2 read the same array, so each holds
    one half of it (the two halves make the whole); every other window holds its array in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

/-- The proof data's arrays are the region's entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one (each current buffer in full, whatever part of
    its array the window holds), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«106258_g65609920414006_cont_sun_m_687_6_alg».proof.Proof.Gen.KernelIdeal.Launch
import proofs.«106258_g65609920414006_cont_sun_m_687_6_alg».proof.Proof.Gen.KernelIdeal.Skeleton
import proofs.«106258_g65609920414006_cont_sun_m_687_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The third kernel (adjacency block times the first product, minus the support block; both results stacked), at the entry contents `V`

Windows: 0 the adjacency block (512 x 4096, input), 1 the first product whole (4096 x 128, input, the same block at
every point), 2 the support block, 3 the block of the first result (both 512 x 128, inputs), 4 the block of the second
result (512 x 128, output), 5 the block of the stacked result (512 x 2 x 128, output, stored as two slabs). -/

/-! ## The windows' blocks -/

/-- Window `w`'s block at grid point `t`: the window's rectangle at `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the window's block at every grid point, whether or not the block was brought
    in at that point: where it was not, the block index has not moved since the point before, and the body left the
    block in place. For any proof data whose array is `V`'s (`hA`) and whose body keeps the block (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, whose block index is constant: it is brought in at the first point only, and holds
    the whole first product at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same for input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev r2_0 : Rect S512x4096 := Rect.unit (s := S512x4096) ![0, 0] S512x4096.size inb_S512x4096_S512x4096_0_0
abbrev r2_1 : Rect S4096x128 := Rect.unit (s := S4096x128) ![0, 0] S4096x128.size inb_S4096x128_S4096x128_0_0
abbrev r2_2 : Rect S512x128 := Rect.unit (s := S512x128) ![0, 0] S512x128.size inb_S512x128_S512x128_0_0
/-- the slab `[:, 0, :]` of the stacked block, -/
abbrev r2_3 : Rect S512x2x128 := Rect.unit (s := S512x2x128) ![0, 0, 0] S512x1x128.size inb_S512x2x128_S512x1x128_0_0_0
/-- and the slab `[:, 1, :]`. -/
abbrev r2_4 : Rect S512x2x128 := Rect.unit (s := S512x2x128) ![0, 1, 0] S512x1x128.size inb_S512x2x128_S512x1x128_0_1_0

/-! ## What the body leaves in each output window's buffer -/

/-- Window 4's buffer after the body, as a function of input blocks 0, 1, 2: the one whole-buffer store of the product
    minus the support block. -/
def out2_4 (x0 : Vec F S512x4096 .f32) (x1 : Vec F S4096x128 .f32) (x2 : Vec F S512x128 .f32) : Vec F S512x128 .f32 :=
  View.canon [⟨r2_2, k2_pay1 (View.ld x0 r2_0) (View.ld x1 r2_1) (View.ld x2 r2_2)⟩]

/-- The store's rectangle is the whole buffer, so every index is covered. -/
theorem cover2_4 (p0 : Vec F S512x128 .f32) (y : S512x128.Idx) :
    ∃ pc ∈ ([⟨r2_2, p0⟩] : List (View.Piece (Elt F) S512x128 .f32)), y ∈ pc.1.set :=
  View.cover_of_tiled [⟨r2_2, p0⟩] S512x128.size (by rfl) y

/-- Window 5's buffer after the body, as a function of the four input blocks: its two stores, the later one first —
    slab 1 gets the second result (from blocks 0, 1, 2), slab 0 the first result (block 3). -/
def out2_5 (x0 : Vec F S512x4096 .f32) (x1 : Vec F S4096x128 .f32) (x2 : Vec F S512x128 .f32) (x3 : Vec F S512x128 .f32) : Vec F S512x2x128 .f32 :=
  View.canon [⟨r2_4, k2_pay3 (View.ld x0 r2_0) (View.ld x1 r2_1) (View.ld x2 r2_2)⟩,
    ⟨r2_3, k2_pay2 (View.ld x3 r2_2)⟩]

/-- The two slabs tile the buffer, so every index is covered. -/
theorem cover2_5 (p0 : Vec F S512x1x128 .f32) (p1 : Vec F S512x1x128 .f32) (y : S512x2x128.Idx) :
    ∃ pc ∈ ([⟨r2_4, p0⟩, ⟨r2_3, p1⟩] : List (View.Piece (Elt F) S512x2x128 .f32)), y ∈ pc.1.set :=
  View.cover_of_tiled [⟨r2_4, p0⟩, ⟨r2_3, p1⟩] S512x1x128.size (by rfl) y

/-! ## The body's triple -/

/-- The body on whole buffers, the inputs' reading `x0 … x3` and the outputs' holding anything, runs to the continuation
    with the inputs' unchanged and the outputs' reading `out2_4`, `out2_5` of the inputs. The body also reads each
    output rectangle before storing into it; those values are not used. -/
theorem sound_kernel2 (c : Dev nD) (E : Set ℕ) (i : grid2.Coords) (arg1 : Memref sig .tc .vmem S512x4096 .f32) (harg1 : arg1.IsWhole) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2x128 .f32) (harg6 : arg6.IsWhole)
    (x0 : Vec F S512x4096 .f32) (x1 : Vec F S4096x128 .f32) (x2 : Vec F S512x128 .f32) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__pass2_body i arg1 harg1 arg2 harg2 arg3 harg3 arg4 harg4 arg5 harg5 arg6 harg6) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _ _)

/-! ## The pipeline's proof data -/

/-- The proof data of the third pipeline on core `c`: the arrays as the region finds them; after the body at point `t`
    each input's buffer at its block and each output's at `out2_4`, `out2_5` of the input blocks; the invariant says
    the rest of the core's state is untouched; nothing is owed; every window holds its array in full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region's entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shared1.lean ====
/-
  The second pass hands ONE array, the support matrix, to two of its input windows (the whole matrix, and the
  row block of the point). Its five windows therefore sit on four distinct buffers. Entering the region, the
  core's unscoped buffers give the four buffers whole; the support buffer is split into two half shares, one per
  reading window. Leaving it, the two halves — both still at the contents they were entered at, an input array
  never being written — are joined again, and the two output arrays are put back at what the write-backs left.
-/
import proofs.«106258_g65609920414006_cont_sun_m_687_6_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The distinct buffers behind the second pass's five windows, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_call0_v0) ↦{fullShare} V main_call0_v0)
          ∗ (((c : Thread nD τ).loc main_call0_v1_0) ↦{fullShare} V main_call0_v1_0) ∗ (((c : Thread nD τ).loc main_v0_1) ↦{fullShare} V main_v0_1)) := by
  unfold Pipeline.arrBufs
  exact bigSep_eq_bigSepL_of_eq [main_arg1, main_call0_v0, main_call0_v1_0, main_v0_1] (by decide) (by decide) _

variable (dat : Dat τ (Elt F) Unit ℕ (UR sig nD τ) ℕ cfg1 c)
  (hq0 : dat.q 0 = fullShare) (hq1 : dat.q 1 = fullShare.left) (hq2 : dat.q 2 = fullShare.right)

include hq0 hq1 hq2 in
/-- The five windows' arrays one by one: the adjacency block's array whole, the support matrix at a half share
    for each of its two windows, the two outputs whole. -/
theorem arrays1_eq (Fn : (w : Fin cfg1.W) → Buf (Elt F) ((cfg1.win w).arr.view.loc (c : Thread nD τ))) :
    (dat.arrays Fn : sProp 𝕄)
      = iprop((((c : Thread nD τ).loc main_arg1) ↦{fullShare} Fn 0) ∗ (((c : Thread nD τ).loc main_call0_v0) ↦{fullShare.left} Fn 1)
          ∗ (((c : Thread nD τ).loc main_call0_v0) ↦{fullShare.right} Fn 2)
          ∗ (((c : Thread nD τ).loc main_call0_v1_0) ↦{fullShare} Fn 3) ∗ (((c : Thread nD τ).loc main_v0_1) ↦{fullShare} Fn 4)) := by
  have h0 : dat.share 0 = fullShare := by unfold Dat.share; rw [if_neg (by decide), hq0]
  have h1 : dat.share 1 = fullShare.left := by unfold Dat.share; rw [if_neg (by decide), hq1]
  have h2 : dat.share 2 = fullShare.right := by unfold Dat.share; rw [if_neg (by decide), hq2]
  have h3 : dat.share 3 = fullShare := by unfold Dat.share; rw [if_pos (by decide)]
  have h4 : dat.share 4 = fullShare := by unfold Dat.share; rw [if_pos (by decide)]
  unfold Dat.arrays
  rw [bigSep_W1, (arr_whole1 0).set_eq_univ, (arr_whole1 1).set_eq_univ, (arr_whole1 3).set_eq_univ,
    (arr_whole1 4).set_eq_univ, h0, h1, h2, h3, h4]

include hq0 hq1 hq2 in
/-- ENTRY: the core's unscoped buffers at contents `V` are the second pass's arrays at the proof data's entry
    contents — read off `V` — and the unscoped rest: the support buffer split into its two halves. -/
theorem entry1 (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  have hsp : (unscopedBufs c V : sProp 𝕄) = iprop(Pipeline.arrBufs spec1 c V ∗ Pipeline.unscopedRest spec1 c V) :=
    Pipeline.unscopedBufs_split₀ cfgs 1 winFacts₀1.arr_unscoped c V
  rw [hsp, arrBufs1_eq, arrays1_eq c dat hq0 hq1 hq2, hA 0, hA 1, hA 2, hA 3, hA 4]
  iintro ⟨⟨H0, Hs, H3, H4⟩, Hrest⟩
  have hS : ((((c : Thread nD τ).loc main_call0_v0) ↦{fullShare} V main_call0_v0 : sProp 𝕄))
      ⊢ iprop((((c : Thread nD τ).loc main_call0_v0) ↦{fullShare.left} V main_call0_v0) ∗ (((c : Thread nD τ).loc main_call0_v0) ↦{fullShare.right} V main_call0_v0)) :=
    (pointsTo_share (PosShare.mem_left_op_right fullShare)).1
  ihave Hs2 := hS $$ Hs
  icases Hs2 with ⟨Hl, Hr⟩
  isplitr [Hrest]
  · isplitl [H0]; · iexact H0
    isplitl [Hl]; · iexact Hl
    isplitl [Hr]; · iexact Hr
    isplitl [H3]; · iexact H3
    iexact H4
  · iexact Hrest

include hq0 hq1 hq2 in
/-- EXIT: the arrays at contents `Fn` and the unscoped rest at `V` are the core's unscoped buffers at any valuation
    `V'` that has the arrays at `Fn` and agrees with `V` off them: the two halves of the support buffer joined. -/
theorem exit1 (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  have hsp : (unscopedBufs c V' : sProp 𝕄) = iprop(Pipeline.arrBufs spec1 c V' ∗ Pipeline.unscopedRest spec1 c V') :=
    Pipeline.unscopedBufs_split₀ cfgs 1 winFacts₀1.arr_unscoped c V'
  rw [hsp, arrBufs1_eq, arrays1_eq c dat hq0 hq1 hq2, hF 0, hF 1, hF 2, hF 3, hF 4]
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hr]
  iintro ⟨⟨H0, Hl, Hr, H3, H4⟩, Hrest⟩
  have hS : (iprop((((c : Thread nD τ).loc main_call0_v0) ↦{fullShare.left} V' main_call0_v0) ∗ (((c : Thread nD τ).loc main_call0_v0) ↦{fullShare.right} V' main_call0_v0)) : sProp 𝕄)
      ⊢ (((c : Thread nD τ).loc main_call0_v0) ↦{fullShare} V' main_call0_v0) :=
    (pointsTo_share (PosShare.mem_left_op_right fullShare)).2
  ihave Hs := hS $$ [Hl Hr]
  · isplitl [Hl]; · iexact Hl
    iexact Hr
  isplitr [Hrest]
  · isplitl [H0]; · iexact H0
    isplitl [Hs]; · iexact Hs
    isplitl [H3]; · iexact H3
    iexact H4
  · iexact Hrest

end Cert.KernelIdeal.Hand
end
-- ==== Proof.KI.Run.lean ====
/-
  The run of the whole program: three passes in a row, no host operation between them. The core's unscoped
  buffers are followed from the launch through the passes: each pass leaves its input arrays as it found them and
  each output array at what the write-backs of its blocks left, every other buffer untouched. The second pass reads
  the support matrix through two windows and so holds it at two half shares (Shared1.lean). At the end every
  unscoped buffer is read back against the last contents: the arguments are the launch's, and the three results are
  the last pass's (and the second pass's) output arrays.
-/
import proofs.«106258_g65609920414006_cont_sun_m_687_6_alg».proof.Proof.Gen.KernelIdeal.Launch
import proofs.«106258_g65609920414006_cont_sun_m_687_6_alg».proof.Proof.Gen.KernelIdeal.Skeleton
import proofs.«106258_g65609920414006_cont_sun_m_687_6_alg».proof.Proof.Gen.KernelIdeal.Points
import proofs.«106258_g65609920414006_cont_sun_m_687_6_alg».proof.Proof.KI.Reg0
import proofs.«106258_g65609920414006_cont_sun_m_687_6_alg».proof.Proof.KI.Reg1
import proofs.«106258_g65609920414006_cont_sun_m_687_6_alg».proof.Proof.KI.Reg2
import proofs.«106258_g65609920414006_cont_sun_m_687_6_alg».proof.Proof.KI.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first pass's entry). -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- After the first pass: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the second pass: its two output arrays at what the pipeline leaves, every other buffer as entered (the
    windows' arrays are not distinct here, so the two outputs are named). -/
def Wc (c : Dev nD) : Valuation τ sig (Elt F) :=
  Function.update (Function.update (Wb m ρ c) (Proc.devRef .tc main_call0_v1_0)
    ((dat1 (Vb m ρ) c).arrAt 3 cfg1.N : Buf (Elt F) ((c : Thread nD τ).loc main_call0_v1_0)))
    (Proc.devRef .tc main_v0_1) ((dat1 (Vb m ρ) c).arrAt 4 cfg1.N : Buf (Elt F) ((c : Thread nD τ).loc main_v0_1))
theorem Wc_t (c : Dev nD) : Wc m ρ c (Proc.devRef .tc main_call0_v1_0) = (dat1 (Vb m ρ) c).arrAt 3 cfg1.N := by
  unfold Wc; rw [Function.update_of_ne (StableHlo.devRef_ne_of_ne (by decide)), Function.update_self]
theorem Wc_low (c : Dev nD) : Wc m ρ c (Proc.devRef .tc main_v0_1) = (dat1 (Vb m ρ) c).arrAt 4 cfg1.N := by
  unfold Wc; rw [Function.update_self]
theorem Wc_of_ne (c : Dev nD) (b : Ref sig .tc) (h1 : b ≠ main_call0_v1_0) (h2 : b ≠ main_v0_1) :
    Wc m ρ c (Proc.devRef .tc b) = Wb m ρ c (Proc.devRef .tc b) := by
  unfold Wc; rw [Function.update_of_ne (StableHlo.devRef_ne_of_ne h2), Function.update_of_ne (StableHlo.devRef_ne_of_ne h1)]
abbrev Vc : (c : Dev nD) → (b : Ref sig .tc) → Buf (Elt F) ((c : Thread nD τ).loc b) := fun c b => Wc m ρ c b
theorem hF1 (c : Dev nD) : ∀ w : Fin cfg1.W, (dat1 (Vb m ρ) c).arrAt w cfg1.N = Vc m ρ c (Pipeline.arrRef spec1 w)
  | ⟨0, _⟩ => ((dat1 (Vb m ρ) c).arrAt_in 0 rfl _).trans ((A_eq1 (Vb m ρ) c 0).trans (Wc_of_ne m ρ c main_arg1 (by decide) (by decide)).symm)
  | ⟨1, _⟩ => ((dat1 (Vb m ρ) c).arrAt_in 1 rfl _).trans ((A_eq1 (Vb m ρ) c 1).trans (Wc_of_ne m ρ c main_call0_v0 (by decide) (by decide)).symm)
  | ⟨2, _⟩ => ((dat1 (Vb m ρ) c).arrAt_in 2 rfl _).trans ((A_eq1 (Vb m ρ) c 2).trans (Wc_of_ne m ρ c main_call0_v0 (by decide) (by decide)).symm)
  | ⟨3, _⟩ => (Wc_t m ρ c).symm
  | ⟨4, _⟩ => (Wc_low m ρ c).symm
  | ⟨_ + 5, h⟩ => absurd h (Nat.not_lt.2 (Nat.le_add_left _ _))
theorem hrest1 (c : Dev nD) : ∀ b, b ∉ Finset.univ.image (Pipeline.arrRef spec1) → Vc m ρ c b = Vb m ρ c b :=
  fun b hb => Wc_of_ne m ρ c b (fun e => hb (Finset.mem_image.mpr ⟨3, Finset.mem_univ _, e.symm⟩))
    (fun e => hb (Finset.mem_image.mpr ⟨4, Finset.mem_univ _, e.symm⟩))

/-- After the third pass. -/
def Wd (c : Dev nD) : Valuation τ sig (Elt F) :=
  Pipeline.withArrays spec2 c (Wc m ρ c) fun w => (dat2 (Vc m ρ) c).arrAt w cfg2.N
theorem Wd_arr (c : Dev nD) (w : Fin cfg2.W) :
    Wd m ρ c (Proc.devRef .tc (Pipeline.arrRef spec2 w)) = (dat2 (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
abbrev Vd : (c : Dev nD) → (b : Ref sig .tc) → Buf (Elt F) ((c : Thread nD τ).loc b) := fun c b => Wd m ρ c b
theorem hF2 (c : Dev nD) (w : Fin cfg2.W) : (dat2 (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-! ### The arguments end as launched: every pass reads them through input windows or bypasses them -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := Wc_of_ne m ρ c main_arg0 (by decide) (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl
theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := (Wd_arr m ρ c 0).trans (((dat2 (Vc m ρ) c).arrAt_in 0 rfl _).trans (A_eq2 (Vc m ρ) c 0))
    _ = Wb m ρ c (Proc.devRef .tc main_arg1) := Wc_of_ne m ρ c main_arg1 (by decide) (by decide)
    _ = Wa m ρ c (Proc.devRef .tc main_arg1) := Wb_of_ne m ρ c main_arg1 (by decide)
    _ = m ((c : Thread nD τ).loc main_arg1) := rfl
theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := Wd_of_ne m ρ c main_arg2 (by decide)
    _ = Wb m ρ c (Proc.devRef .tc main_arg2) := Wc_of_ne m ρ c main_arg2 (by decide) (by decide)
    _ = Wa m ρ c (Proc.devRef .tc main_arg2) := (Wb_arr m ρ c 1).trans (((dat0 (Va m ρ) c).arrAt_in 1 rfl _).trans (A_eq0 (Va m ρ) c 1))
    _ = m ((c : Thread nD τ).loc main_arg2) := rfl

/-! ## The proof data family and the thread state -/

/-- No pass has a prefetched table. -/
abbrev adm : (p : Fin 3) → (pcfgs (F := F) p).Adm := fun p => (cfgs p).toPCfg_adm
/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every pass: the core's generator register at some state and its `owes`, at nothing. -/
abbrev R (c : Dev nD) : sProp 𝕄 := iprop((∃ r, prngReg c r) ∗ ∃ W, owes (c : Thread nD τ) (0 : CellTallies nD τ sig Unit) W)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (Wd m ρ c) ∗ ∃ r, prngReg c r)

/-! ## The passes as segments -/

set_option backward.isDefEq.respectTransparency.types false in
/-- Pass 0 as a segment of the run: entered from every unscoped buffer at `Wa`, left at `Wb`. Its arrays are
    split out of the unscoped buffers at the entry and put back at the exit at what the write-backs left; the
    generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the run: entered from every unscoped buffer at `Wb`, left at `Wc`. Its arrays are
    split out of the unscoped buffers at the entry and put back at the exit at what the write-backs left; the
    generator register goes into the pipeline's invariant and comes back; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := entry1 (F := F) c (pdats m ρ 1 c) rfl rfl rfl (Vb m ρ c) (A_eq1 (Vb m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) c (pdats m ρ 1 c) rfl rfl rfl (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the run: entered from every unscoped buffer at `Wc`, left at `Wd`. Its arrays are
    split out of the unscoped buffers at the entry and put back at the exit at what the write-backs left; the
    generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ) ]
/-- The program is the run of the three segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the last contents `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c)⟩) (run_all m ρ)

end Cert.KernelIdeal.Hand
end
-- ==== Proof.KI.Pay.lean ====
/-
  The arithmetic each pass stores, read entry by entry over the extended reals: a block product into the zero
  accumulator is the sum over the contracted coordinate of the operands' products; the first pass takes its maximum
  with zero, the second adds a block, the third subtracts one; a 512×128 block laid out as 512×1×128 keeps its entries.
-/
import proofs.«106258_g65609920414006_cont_sun_m_687_6_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-! ## The two block products -/

/-- The dimension numbers of the 512×256 by 256×128 product, and of the 512×4096 by 4096×128 product. -/
abbrev DX := dot_S512x256_S256x128_S512x128_1_0_0_1_n_n
abbrev DA := dot_S512x4096_S4096x128_S512x128_1_0_0_1_n_n

theorem DX_lhs_0 (i : S512x128.Idx) (q : DX.contr.Idx) : (DX.lhsIdx i q 0).val = (i 0).val := by
  unfold DotDims.lhsIdx
  rw [dif_neg (show ¬(0 : Fin S512x256.rank) ∈ DX.lhsBatch by decide), dif_pos (show (0 : Fin S512x256.rank) ∈ DX.lhsNonContracting by decide)]
  rfl
theorem DX_lhs_1 (i : S512x128.Idx) (q : DX.contr.Idx) : (DX.lhsIdx i q 1).val = (q ⟨0, by decide⟩).val :=
  DX.lhsIdx_val_of_single rfl i q
theorem DX_rhs_0 (i : S512x128.Idx) (q : DX.contr.Idx) : (DX.rhsIdx i q 0).val = (q ⟨0, by decide⟩).val :=
  DX.rhsIdx_val_of_single rfl i q
theorem DX_rhs_1 (i : S512x128.Idx) (q : DX.contr.Idx) : (DX.rhsIdx i q 1).val = (i 1).val := by
  unfold DotDims.rhsIdx
  rw [dif_neg (show ¬(1 : Fin S256x128.rank) ∈ DX.rhsBatch by decide), dif_pos (show (1 : Fin S256x128.rank) ∈ DX.rhsNonContracting by decide)]
  rfl

theorem DA_lhs_0 (i : S512x128.Idx) (q : DA.contr.Idx) : (DA.lhsIdx i q 0).val = (i 0).val := by
  unfold DotDims.lhsIdx
  rw [dif_neg (show ¬(0 : Fin S512x4096.rank) ∈ DA.lhsBatch by decide), dif_pos (show (0 : Fin S512x4096.rank) ∈ DA.lhsNonContracting by decide)]
  rfl
theorem DA_lhs_1 (i : S512x128.Idx) (q : DA.contr.Idx) : (DA.lhsIdx i q 1).val = (q ⟨0, by decide⟩).val :=
  DA.lhsIdx_val_of_single rfl i q
theorem DA_rhs_0 (i : S512x128.Idx) (q : DA.contr.Idx) : (DA.rhsIdx i q 0).val = (q ⟨0, by decide⟩).val :=
  DA.rhsIdx_val_of_single rfl i q
theorem DA_rhs_1 (i : S512x128.Idx) (q : DA.contr.Idx) : (DA.rhsIdx i q 1).val = (i 1).val := by
  unfold DotDims.rhsIdx
  rw [dif_neg (show ¬(1 : Fin S4096x128.rank) ∈ DA.rhsBatch by decide), dif_pos (show (1 : Fin S4096x128.rank) ∈ DA.rhsNonContracting by decide)]
  rfl

/-- Entry (p, q) of the 512×256 by 256×128 block product into the zero accumulator. -/
theorem prodX_apply (v0 : FVec Ideal S512x256 .f32) (v1 : FVec Ideal S256x128 .f32) (p : Fin 512) (q : Fin 128) :
    FloatOps.matmul DX none v0 v1 (constant (F := Ideal) S512x128 .f32 0x00000000#32) (ix2 p q)
      = ∑ k : Fin 256, v0 (ix2 p k) * v1 (ix2 k q) := by
  rw [Ideal.matmul_constant_zero_apply, ← Equiv.sum_comp (contrEquiv1 DX 256 rfl rfl).symm]
  refine Finset.sum_congr rfl fun k _ => ?_
  have hk := contrEquiv1_symm_val DX 256 rfl rfl k
  have el : DX.lhsIdx (ix2 p q) ((contrEquiv1 DX 256 rfl rfl).symm k) = ix2 p k := funext fun a => Fin.ext (by
    match a with
    | ⟨0, _⟩ => exact DX_lhs_0 _ _
    | ⟨1, _⟩ => exact (DX_lhs_1 _ _).trans hk)
  have er : DX.rhsIdx (ix2 p q) ((contrEquiv1 DX 256 rfl rfl).symm k) = ix2 k q := funext fun a => Fin.ext (by
    match a with
    | ⟨0, _⟩ => exact (DX_rhs_0 _ _).trans hk
    | ⟨1, _⟩ => exact DX_rhs_1 _ _)
  rw [el, er]

/-- Entry (p, q) of the 512×4096 by 4096×128 block product into the zero accumulator. -/
theorem prodA_apply (v0 : FVec Ideal S512x4096 .f32) (v1 : FVec Ideal S4096x128 .f32) (p : Fin 512) (q : Fin 128) :
    FloatOps.matmul DA none v0 v1 (constant (F := Ideal) S512x128 .f32 0x00000000#32) (ix2 p q)
      = ∑ k : Fin 4096, v0 (ix2 p k) * v1 (ix2 k q) := by
  rw [Ideal.matmul_constant_zero_apply, ← Equiv.sum_comp (contrEquiv1 DA 4096 rfl rfl).symm]
  refine Finset.sum_congr rfl fun k _ => ?_
  have hk := contrEquiv1_symm_val DA 4096 rfl rfl k
  have el : DA.lhsIdx (ix2 p q) ((contrEquiv1 DA 4096 rfl rfl).symm k) = ix2 p k := funext fun a => Fin.ext (by
    match a with
    | ⟨0, _⟩ => exact DA_lhs_0 _ _
    | ⟨1, _⟩ => exact (DA_lhs_1 _ _).trans hk)
  have er : DA.rhsIdx (ix2 p q) ((contrEquiv1 DA 4096 rfl rfl).symm k) = ix2 k q := funext fun a => Fin.ext (by
    match a with
    | ⟨0, _⟩ => exact (DA_rhs_0 _ _).trans hk
    | ⟨1, _⟩ => exact DA_rhs_1 _ _)
  rw [el, er]

/-! ## A block with a unit middle axis -/

/-- A 512×128 block laid out as 512×1×128 reads, at (p, z, q), the block at (p, q). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The stored values, entry by entry -/

/-- First pass: the maximum of the block product and zero. -/
theorem k0_pay1_apply (v0 : Vec Ideal S512x256 .f32) (v1 : Vec Ideal S256x128 .f32) (p : Fin 512) (q : Fin 128) :
    k0_pay1 v0 v1 (ix2 p q) = max (∑ k : Fin 256, v0 (ix2 p k) * v1 (ix2 k q)) 0 := by
  unfold k0_pay1
  refine (maximumf_apply _ _ _).trans ?_
  refine congrArg₂ max (prodX_apply v0 v1 p q) ?_
  exact Ideal.ofBits_zero_f32

/-- Second pass, first result: the block product. -/
theorem k1_pay1_apply (v0 : Vec Ideal S512x4096 .f32) (v1 : Vec Ideal S4096x128 .f32) (p : Fin 512) (q : Fin 128) :
    k1_pay1 v0 v1 (ix2 p q) = ∑ k : Fin 4096, v0 (ix2 p k) * v1 (ix2 k q) := by
  unfold k1_pay1
  rw [shapeCast_self]
  exact prodA_apply v0 v1 p q

/-- Second pass, second result: the block product plus a block. -/
theorem k1_pay2_apply (v0 : Vec Ideal S512x4096 .f32) (v1 : Vec Ideal S4096x128 .f32) (v5 : Vec Ideal S512x128 .f32)
    (p : Fin 512) (q : Fin 128) :
    k1_pay2 v0 v1 v5 (ix2 p q) = (∑ k : Fin 4096, v0 (ix2 p k) * v1 (ix2 k q)) + v5 (ix2 p q) := by
  unfold k1_pay2
  rw [shapeCast_self]
  refine (addf_apply _ _ _).trans ?_
  rw [k1_pay1_apply]

/-- Third pass, first result: the block product minus a block. -/
theorem k2_pay1_apply (v0 : Vec Ideal S512x4096 .f32) (v1 : Vec Ideal S4096x128 .f32) (v4 : Vec Ideal S512x128 .f32)
    (p : Fin 512) (q : Fin 128) :
    k2_pay1 v0 v1 v4 (ix2 p q) = (∑ k : Fin 4096, v0 (ix2 p k) * v1 (ix2 k q)) - v4 (ix2 p q) := by
  unfold k2_pay1
  rw [shapeCast_self, shapeCast_self]
  refine (subf_apply _ _ _).trans ?_
  exact congrArg (· - v4 (ix2 p q)) (prodA_apply v0 v1 p q)

/-- Third pass, the stacked result's first slab: a block as it is. -/
theorem k2_pay2_apply (v8 : Vec Ideal S512x128 .f32) (p : Fin 512) (z : Fin 1) (q : Fin 128) :
    k2_pay2 v8 (ix3 p z q) = v8 (ix2 p q) := by
  unfold k2_pay2
  rw [shapeCast_self]
  exact shapeCast_ab_a1b_apply v8 _ p z q

/-- Third pass, the stacked result's second slab: the block product minus a block. -/
theorem k2_pay3_apply (v0 : Vec Ideal S512x4096 .f32) (v1 : Vec Ideal S4096x128 .f32) (v4 : Vec Ideal S512x128 .f32)
    (p : Fin 512) (z : Fin 1) (q : Fin 128) :
    k2_pay3 v0 v1 v4 (ix3 p z q) = (∑ k : Fin 4096, v0 (ix2 p k) * v1 (ix2 k q)) - v4 (ix2 p q) := by
  unfold k2_pay3
  refine (shapeCast_ab_a1b_apply (k2_pay1 v0 v1 v4) _ p z q).trans ?_
  exact k2_pay1_apply v0 v1 v4 p q

end Cert.KernelIdeal.Hand

end
-- ==== Proof.KI.Val0.lean ====
/-
  The first pass's result array: every grid point t writes rows 512·t … 512·t + 511 of
  relu (x · w), its block of the feature matrix being those rows of x and its block of the weights
  being w itself; the eight blocks tile the 4096 rows, so the array ends holding relu (x · w).
-/
import proofs.«106258_g65609920414006_cont_sun_m_687_6_alg».proof.Proof.KI.Reg0
import proofs.«106258_g65609920414006_cont_sun_m_687_6_alg».proof.Proof.KI.Pay
import proofs.«106258_g65609920414006_cont_sun_m_687_6_alg».proof.Proof.Spec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

namespace Val0

theorem hz : (![0, 0] : Fin 2 → Nat) = fun _ => 0 := funext fun a => by fin_cases a <;> rfl

/-- relu (x · w) at an entry. -/
theorem arr_support_apply (x : SF.Idx → EReal) (w : SW.Idx → EReal) (r : Fin 4096) (q : Fin 128) :
    arr (support x w) (ix2 r q) = max (∑ k : Fin 256, x (ix2 r k) * w (ix2 k q)) 0 := rfl

/-- The block indices at grid point t: the feature block and the result block are row block t, the weights' is (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 512·t … of x. -/
theorem iblk_x (c : Dev nD) (t : Fin cfg0.N) (y : S512x256.Idx) (k : S4096x256.Idx)
    (hk0 : (k 0).val = 512 * t.val + (y 0).val) (hk1 : (k 1).val = (y 1).val) :
    (iblk0 V c 0 t : Vec Ideal S512x256 .f32) y = (V c main_arg0 : S4096x256.Idx → Elt Ideal .f32) k := by
  obtain ⟨e0, e1, -⟩ := idx t
  unfold iblk0
  rw [View.read_apply]
  show V c main_arg0 _ = V c main_arg0 _
  refine congrArg _ (funext fun a => Fin.ext ?_)
  match a with
  | ⟨0, _⟩ => show win0_0.index t 0 * 512 + 1 * (y 0).val = (k 0).val; rw [e0, hk0]; omega
  | ⟨1, _⟩ => show win0_0.index t 1 * 256 + 1 * (y 1).val = (k 1).val; rw [e1, hk1]; omega

/-- The weights' block at every point is w. -/
theorem iblk_w (c : Dev nD) (t : Fin cfg0.N) (y : S256x128.Idx) :
    (iblk0 V c 1 t : Vec Ideal S256x128 .f32) y = (V c main_arg2 : S256x128.Idx → Elt Ideal .f32) y := by
  obtain ⟨-, -, e2, e3, -⟩ := idx t
  unfold iblk0
  rw [View.read_apply]
  show V c main_arg2 _ = V c main_arg2 _
  refine congrArg _ (funext fun a => Fin.ext ?_)
  match a with
  | ⟨0, _⟩ => show win0_1.index t 0 * 256 + 1 * (y 0).val = (y 0).val; rw [e2]; omega
  | ⟨1, _⟩ => show win0_1.index t 1 * 128 + 1 * (y 1).val = (y 1).val; rw [e3]; omega

/-- What point t writes back is its block of relu (x · w). -/
theorem flushed_eq (c : Dev nD) (t : Fin cfg0.N) :
    (dat0 V c).flushed 2 t = ((cfg0.win 2).blk t).view.read (Elt Ideal) (arr (support (V c main_arg0) (V c main_arg2))) := by
  show (cfg0.win 2).cut (grid0.coords t) ((dat0 V c).after 2 t) = _
  rw [after0_2]
  unfold out0_2
  rw [View.canon_unit_zero hz]
  simp only [View.ld_unit_zero (S := S512x256) hz, View.ld_unit_zero (S := S256x128) hz]
  refine funext fun (j : S512x128.Idx) => ?_
  obtain ⟨p, q, rfl⟩ : ∃ (p : Fin 512) (q : Fin 128), j = ix2 p q := ⟨j 0, j 1, eq_ix2 j⟩
  obtain ⟨-, -, -, -, e4, e5⟩ := idx t
  have hN : cfg0.N = 8 := N_0
  have ht : t.val < cfg0.N := t.isLt
  have hp : p.val < 512 := p.isLt
  have hr : 512 * t.val + p.val < 4096 := by omega
  show k0_pay1 (iblk0 V c 0 t) (iblk0 V c 1 t) (ix2 p q)
    = arr (support (V c main_arg0) (V c main_arg2)) (((cfg0.win 2).blk t).view.emb (ix2 p q))
  refine (k0_pay1_apply (iblk0 V c 0 t) (iblk0 V c 1 t) p q).trans ?_
  have he : ((cfg0.win 2).blk t).view.emb (ix2 p q) = (ix2 (⟨512 * t.val + p.val, hr⟩ : Fin 4096) q : S4096x128.Idx) := by
    refine funext fun a => Fin.ext ?_
    match a with
    | ⟨0, _⟩ => show win0_2.index t 0 * 512 + 1 * p.val = 512 * t.val + p.val; rw [e4]; omega
    | ⟨1, _⟩ => show win0_2.index t 1 * 128 + 1 * q.val = q.val; rw [e5]; omega
  rw [he]
  refine Eq.trans ?_ (arr_support_apply (V c main_arg0) (V c main_arg2) (⟨512 * t.val + p.val, hr⟩ : Fin 4096) q).symm
  refine congrArg (fun s => max s 0) (Finset.sum_congr rfl fun k _ => ?_)
  rw [iblk_x V c t (ix2 p k) (ix2 (⟨512 * t.val + p.val, hr⟩ : Fin 4096) k) rfl rfl, iblk_w V c t (ix2 k q)]

/-- An index of the result array is in point t's block iff each coordinate is in the block's range. -/
theorem mem_blk (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_call0_v0).slice (win0_2.rect t)).set ↔ _
  rw [View.set_slice_whole, Rect.mem_set_unit]
  exact Iff.rfl

/-- Row r is in the block of point r / 512. -/
theorem cover (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, e4, e5⟩ := idx t
  refine ⟨t, flush0_2 t, ?_⟩
  rw [mem_blk]
  intro a
  match a with
  | ⟨0, _⟩ => show win0_2.index t 0 * 512 ≤ (i 0).val ∧ (i 0).val < win0_2.index t 0 * 512 + 512; rw [e4, ht]; omega
  | ⟨1, _⟩ => show win0_2.index t 1 * 128 ≤ (i 1).val ∧ (i 1).val < win0_2.index t 1 * 128 + 128; rw [e5]; omega

end Val0

/-- The first pass's result array after the run is relu (x · w). -/
theorem final0_2 (c : Dev nD) : (dat0 V c).arrAt 2 cfg0.N = arr (support (V c main_arg0) (V c main_arg2)) :=
  (dat0 V c).arrAt_eq_of_cover 2 (arr (support (V c main_arg0) (V c main_arg2))) (fun t _ => Val0.flushed_eq V c t) Val0.cover

end Cert.KernelIdeal.Hand

end
-- ==== Proof.KI.Val1.lean ====
/-
  The second pass, from blocks to arrays: the row block of a·s and of a·s + s that each grid point writes back is the
  row block of one whole-array function of the arrays the pass found, and the eight row blocks cover the 4096 rows.
-/
import proofs.«106258_g65609920414006_cont_sun_m_687_6_alg».proof.Proof.KI.Reg1
import proofs.«106258_g65609920414006_cont_sun_m_687_6_alg».proof.Proof.KI.Pay
import proofs.«106258_g65609920414006_cont_sun_m_687_6_alg».proof.Proof.Spec
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Val1

/-- The zero offsets of a whole-buffer access. -/
theorem hz1 : (![0, 0] : Fin 2 → Nat) = fun _ => 0 := funext fun a => by fin_cases a <;> rfl

/-! ## Which arrays the windows stage -/

example : Pipeline.arrRef spec1 0 = main_arg1 := rfl
example : Pipeline.arrRef spec1 1 = main_call0_v0 := rfl
example : Pipeline.arrRef spec1 2 = main_call0_v0 := rfl
example : Pipeline.arrRef spec1 3 = main_call0_v1_0 := rfl
example : Pipeline.arrRef spec1 4 = main_v0_1 := rfl

/-! ## The block indices, decided over the eight grid points -/

/-- At grid point t the row-block windows sit at block (t, 0) and the whole-array window at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- A grid point is below eight, so its row block ends inside the 4096 rows. -/
theorem row_lt1 (t : Fin cfg1.N) (p : Fin 512) : 512 * t.val + p.val < 4096 := by
  have h := t.isLt
  have hN : cfg1.N = 8 := N_1
  omega

/-! ## What the body leaves, entry by entry -/

theorem out1_3_apply (x0 : Vec Ideal S512x4096 .f32) (x1 : Vec Ideal S4096x128 .f32) (p : Fin 512) (q : Fin 128) :
    out1_3 x0 x1 (ix2 p q) = ∑ k : Fin 4096, x0 (ix2 p k) * x1 (ix2 k q) := by
  unfold out1_3
  rw [View.canon_unit_zero hz1]
  simp only [View.ld_unit_zero (S := S512x4096) hz1, View.ld_unit_zero (S := S4096x128) hz1]
  exact k1_pay1_apply x0 x1 p q

theorem out1_4_apply (x0 : Vec Ideal S512x4096 .f32) (x1 : Vec Ideal S4096x128 .f32) (x2 : Vec Ideal S512x128 .f32)
    (p : Fin 512) (q : Fin 128) :
    out1_4 x0 x1 x2 (ix2 p q) = (∑ k : Fin 4096, x0 (ix2 p k) * x1 (ix2 k q)) + x2 (ix2 p q) := by
  unfold out1_4
  rw [View.canon_unit_zero hz1]
  simp only [View.ld_unit_zero (S := S512x4096) hz1, View.ld_unit_zero (S := S4096x128) hz1, View.ld_unit_zero (S := S512x128) hz1]
  exact k1_pay2_apply x0 x1 x2 p q

/-- The body's first result at an entry, when row p of the first block is row r of a and the second block is s:
    entry (r, q) of a·s. -/
theorem out1_3_row (A : S4096x4096.Idx → EReal) (B : S4096x128.Idx → EReal)
    (x0 : Vec Ideal S512x4096 .f32) (x1 : Vec Ideal S4096x128 .f32) (r : Fin 4096) (p : Fin 512) (q : Fin 128)
    (h0 : ∀ k : Fin 4096, x0 (ix2 p k) = A (ix2 r k)) (h1 : ∀ k : Fin 4096, x1 (ix2 k q) = B (ix2 k q)) :
    out1_3 x0 x1 (ix2 p q) = arr (prod A (mat B)) (ix2 r q) := by
  rw [out1_3_apply]
  show _ = ∑ k : Fin 4096, A (ix2 r k) * B (ix2 k q)
  exact Finset.sum_congr rfl fun k _ => by rw [h0 k, h1 k]

/-- The body's second result at an entry, when moreover row p of the third block is row r of s: entry (r, q) of a·s + s. -/
theorem out1_4_row (A : S4096x4096.Idx → EReal) (B : S4096x128.Idx → EReal)
    (x0 : Vec Ideal S512x4096 .f32) (x1 : Vec Ideal S4096x128 .f32) (x2 : Vec Ideal S512x128 .f32)
    (r : Fin 4096) (p : Fin 512) (q : Fin 128)
    (h0 : ∀ k : Fin 4096, x0 (ix2 p k) = A (ix2 r k)) (h1 : ∀ k : Fin 4096, x1 (ix2 k q) = B (ix2 k q))
    (h2 : x2 (ix2 p q) = B (ix2 r q)) :
    out1_4 x0 x1 x2 (ix2 p q) = arr (low A (mat B)) (ix2 r q) := by
  rw [out1_4_apply, h2]
  show _ = (∑ k : Fin 4096, A (ix2 r k) * B (ix2 k q)) + B (ix2 r q)
  exact congrArg (· + B (ix2 r q)) (Finset.sum_congr rfl fun k _ => by rw [h0 k, h1 k])

/-! ## The input blocks, read off the arrays -/

/-- Row p of the block of a at grid point t is row 512·t + p of a. -/
theorem iblk1_0_apply (c : Dev nD) (t : Fin cfg1.N) (p : Fin 512) (k : Fin 4096) :
    (iblk1 V c 0 t : Vec Ideal S512x4096 .f32) (ix2 p k)
      = (V c main_arg1 : S4096x4096.Idx → EReal) (ix2 ⟨512 * t.val + p.val, row_lt1 t p⟩ k) := by
  obtain ⟨e0, e1, -⟩ := idx1 t
  unfold iblk1
  rw [View.read_apply]
  show V c main_arg1 _ = V c main_arg1 _
  refine congrArg (V c main_arg1) (funext fun a => Fin.ext ?_)
  match a with
  | ⟨0, _⟩ => show win1_0.index t (0 : Fin 2) * 512 + 1 * p.val = 512 * t.val + p.val; omega
  | ⟨1, _⟩ => show win1_0.index t (1 : Fin 2) * 4096 + 1 * k.val = k.val; omega

/-- The whole-array window holds the whole of s at every grid point. -/
theorem iblk1_1_apply (c : Dev nD) (t : Fin cfg1.N) (k : Fin 4096) (q : Fin 128) :
    (iblk1 V c 1 t : Vec Ideal S4096x128 .f32) (ix2 k q)
      = (V c main_call0_v0 : S4096x128.Idx → EReal) (ix2 k q) := by
  obtain ⟨-, -, e0, e1, -⟩ := idx1 t
  unfold iblk1
  rw [View.read_apply]
  show V c main_call0_v0 _ = V c main_call0_v0 _
  refine congrArg (V c main_call0_v0) (funext fun a => Fin.ext ?_)
  match a with
  | ⟨0, _⟩ => show win1_1.index t (0 : Fin 2) * 4096 + 1 * k.val = k.val; omega
  | ⟨1, _⟩ => show win1_1.index t (1 : Fin 2) * 128 + 1 * q.val = q.val; omega

/-- Row p of the block of s at grid point t is row 512·t + p of s. -/
theorem iblk1_2_apply (c : Dev nD) (t : Fin cfg1.N) (p : Fin 512) (q : Fin 128) :
    (iblk1 V c 2 t : Vec Ideal S512x128 .f32) (ix2 p q)
      = (V c main_call0_v0 : S4096x128.Idx → EReal) (ix2 ⟨512 * t.val + p.val, row_lt1 t p⟩ q) := by
  obtain ⟨-, -, -, -, e0, e1, -⟩ := idx1 t
  unfold iblk1
  rw [View.read_apply]
  show V c main_call0_v0 _ = V c main_call0_v0 _
  refine congrArg (V c main_call0_v0) (funext fun a => Fin.ext ?_)
  match a with
  | ⟨0, _⟩ => show win1_2.index t (0 : Fin 2) * 512 + 1 * p.val = 512 * t.val + p.val; omega
  | ⟨1, _⟩ => show win1_2.index t (1 : Fin 2) * 128 + 1 * q.val = q.val; omega

/-! ## The block each grid point writes back -/

/-- Where entry (p, q) of the output block at grid point t sits in the array: row 512·t + p, column q. -/
theorem emb1_3 (t : Fin cfg1.N) (p : Fin 512) (q : Fin 128) :
    ((cfg1.win 3).blk t).view.emb (ix2 p q : S512x128.Idx) = (ix2 ⟨512 * t.val + p.val, row_lt1 t p⟩ q : S4096x128.Idx) := by
  obtain ⟨-, -, -, -, -, -, e0, e1, -⟩ := idx1 t
  refine funext fun a => Fin.ext ?_
  match a with
  | ⟨0, _⟩ => show win1_3.index t (0 : Fin 2) * 512 + 1 * p.val = 512 * t.val + p.val; omega
  | ⟨1, _⟩ => show win1_3.index t (1 : Fin 2) * 128 + 1 * q.val = q.val; omega

theorem emb1_4 (t : Fin cfg1.N) (p : Fin 512) (q : Fin 128) :
    ((cfg1.win 4).blk t).view.emb (ix2 p q : S512x128.Idx) = (ix2 ⟨512 * t.val + p.val, row_lt1 t p⟩ q : S4096x128.Idx) := by
  obtain ⟨-, -, -, -, -, -, -, -, e0, e1⟩ := idx1 t
  refine funext fun a => Fin.ext ?_
  match a with
  | ⟨0, _⟩ => show win1_4.index t (0 : Fin 2) * 512 + 1 * p.val = 512 * t.val + p.val; omega
  | ⟨1, _⟩ => show win1_4.index t (1 : Fin 2) * 128 + 1 * q.val = q.val; omega

/-- Grid point t writes back rows 512·t … 512·t + 511 of a·s. -/
theorem flushed1_3_eq (c : Dev nD) (t : Fin cfg1.N) :
    (dat1 V c).flushed 3 t
      = ((cfg1.win 3).blk t).view.read (Elt Ideal) (arr (prod (V c main_arg1) (mat (V c main_call0_v0)))) := by
  show (cfg1.win 3).cut (grid1.coords t) ((dat1 V c).after 3 t) = _
  rw [after1_3]
  refine funext fun (j : S512x128.Idx) => ?_
  obtain ⟨p, q, rfl⟩ : ∃ (p : Fin 512) (q : Fin 128), j = ix2 p q := ⟨j 0, j 1, eq_ix2 j⟩
  show out1_3 (iblk1 V c 0 t) (iblk1 V c 1 t) (ix2 p q)
    = arr (prod (V c main_arg1) (mat (V c main_call0_v0))) (((cfg1.win 3).blk t).view.emb (ix2 p q : S512x128.Idx))
  rw [emb1_3 t p q]
  exact out1_3_row (V c main_arg1) (V c main_call0_v0) (iblk1 V c 0 t) (iblk1 V c 1 t) ⟨512 * t.val + p.val, row_lt1 t p⟩ p q
    (fun k => iblk1_0_apply V c t p k) (fun k => iblk1_1_apply V c t k q)

/-- Grid point t writes back rows 512·t … 512·t + 511 of a·s + s. -/
theorem flushed1_4_eq (c : Dev nD) (t : Fin cfg1.N) :
    (dat1 V c).flushed 4 t
      = ((cfg1.win 4).blk t).view.read (Elt Ideal) (arr (low (V c main_arg1) (mat (V c main_call0_v0)))) := by
  show (cfg1.win 4).cut (grid1.coords t) ((dat1 V c).after 4 t) = _
  rw [after1_4]
  refine funext fun (j : S512x128.Idx) => ?_
  obtain ⟨p, q, rfl⟩ : ∃ (p : Fin 512) (q : Fin 128), j = ix2 p q := ⟨j 0, j 1, eq_ix2 j⟩
  show out1_4 (iblk1 V c 0 t) (iblk1 V c 1 t) (iblk1 V c 2 t) (ix2 p q)
    = arr (low (V c main_arg1) (mat (V c main_call0_v0))) (((cfg1.win 4).blk t).view.emb (ix2 p q : S512x128.Idx))
  rw [emb1_4 t p q]
  exact out1_4_row (V c main_arg1) (V c main_call0_v0) (iblk1 V c 0 t) (iblk1 V c 1 t) (iblk1 V c 2 t)
    ⟨512 * t.val + p.val, row_lt1 t p⟩ p q
    (fun k => iblk1_0_apply V c t p k) (fun k => iblk1_1_apply V c t k q) (iblk1_2_apply V c t p q)

/-! ## The eight row blocks cover the array -/

theorem mem_blk1_3 (t : Fin cfg1.N) (i : S4096x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_call0_v1_0).slice (win1_3.rect t)).set ↔ _
  rw [View.set_slice_whole, Rect.mem_set_unit]
  exact Iff.rfl

theorem mem_blk1_4 (t : Fin cfg1.N) (i : S4096x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v0_1).slice (win1_4.rect t)).set ↔ _
  rw [View.set_slice_whole, Rect.mem_set_unit]
  exact Iff.rfl

/-- Row r lies in the block of grid point r / 512. -/
theorem rows_cover1_3 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  have hN : cfg1.N = 8 := N_1
  let t : Fin cfg1.N := ⟨(i 0).val / 512, by rw [hN]; omega⟩
  obtain ⟨-, -, -, -, -, -, e0, e1, -⟩ := idx1 t
  have ht : t.val = (i 0).val / 512 := rfl
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

theorem rows_cover1_4 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 8 := N_1
  let t : Fin cfg1.N := ⟨(i 0).val / 512, by rw [hN]; omega⟩
  obtain ⟨-, -, -, -, -, -, -, -, e0, e1⟩ := idx1 t
  have ht : t.val = (i 0).val / 512 := rfl
  refine ⟨t, flush1_4 t, ?_⟩
  rw [mem_blk1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 128 ≤ (i 1).val ∧ (i 1).val < win1_4.index t (1 : Fin 2) * 128 + 128; omega

end Val1

/-! ## The arrays after the pass -/

/-- After the second pass the first result array holds a·s, -/
theorem final1_3 (c : Dev nD) :
    (dat1 V c).arrAt 3 cfg1.N = arr (prod (V c main_arg1) (mat (V c main_call0_v0))) :=
  (dat1 V c).arrAt_eq_of_cover 3 (arr (prod (V c main_arg1) (mat (V c main_call0_v0))))
    (fun t _ => Val1.flushed1_3_eq V c t) Val1.rows_cover1_3

/-- and the second holds a·s + s, for a and s the arrays the pass found. -/
theorem final1_4 (c : Dev nD) :
    (dat1 V c).arrAt 4 cfg1.N = arr (low (V c main_arg1) (mat (V c main_call0_v0))) :=
  (dat1 V c).arrAt_eq_of_cover 4 (arr (low (V c main_arg1) (mat (V c main_call0_v0))))
    (fun t _ => Val1.flushed1_4_eq V c t) Val1.rows_cover1_4

end Cert.KernelIdeal.Hand

end
-- ==== Proof.KI.Val2a.lean ====
/-
  The third pass's first result, from blocks to the array: the row block of a·t − s that each grid point writes back is
  the row block of one whole-array function of the arrays the pass found, and the eight row blocks cover the 4096 rows.
-/
import proofs.«106258_g65609920414006_cont_sun_m_687_6_alg».proof.Proof.KI.Reg2
import proofs.«106258_g65609920414006_cont_sun_m_687_6_alg».proof.Proof.KI.Pay
import proofs.«106258_g65609920414006_cont_sun_m_687_6_alg».proof.Proof.Spec
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Val2a

/-- The zero offsets of a whole-buffer access. -/
theorem hz2 : (![0, 0] : Fin 2 → Nat) = fun _ => 0 := funext fun a => by fin_cases a <;> rfl

/-! ## Which arrays the windows stage -/

example : Pipeline.arrRef spec2 0 = main_arg1 := rfl
example : Pipeline.arrRef spec2 1 = main_call0_v1_0 := rfl
example : Pipeline.arrRef spec2 2 = main_call0_v0 := rfl
example : Pipeline.arrRef spec2 3 = main_v0_1 := rfl
example : Pipeline.arrRef spec2 4 = main_v0_2 := rfl
example : Pipeline.arrRef spec2 5 = main_v0_0 := rfl

/-! ## The block indices, decided over the eight grid points -/

/-- At grid point t the row-block windows sit at block (t, 0) — the stacked one at (t, 0, 0) — and the whole-array
    window at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- A grid point is below eight, so its row block ends inside the 4096 rows. -/
theorem row_lt2 (t : Fin cfg2.N) (p : Fin 512) : 512 * t.val + p.val < 4096 := by
  have h := t.isLt
  have hN : cfg2.N = 8 := N_2
  omega

/-! ## What the body leaves in the first result's buffer, entry by entry -/

theorem out2_4_apply (x0 : Vec Ideal S512x4096 .f32) (x1 : Vec Ideal S4096x128 .f32) (x2 : Vec Ideal S512x128 .f32)
    (p : Fin 512) (q : Fin 128) :
    out2_4 x0 x1 x2 (ix2 p q) = (∑ k : Fin 4096, x0 (ix2 p k) * x1 (ix2 k q)) - x2 (ix2 p q) := by
  unfold out2_4
  rw [View.canon_unit_zero hz2]
  simp only [View.ld_unit_zero (S := S512x4096) hz2, View.ld_unit_zero (S := S4096x128) hz2, View.ld_unit_zero (S := S512x128) hz2]
  exact k2_pay1_apply x0 x1 x2 p q

/-- The same when row p of the first block is row r of a, the second block is t, and row p of the third block is
    row r of s: entry (r, q) of a·t − s. -/
theorem out2_4_row (A : S4096x4096.Idx → EReal) (T B : S4096x128.Idx → EReal)
    (x0 : Vec Ideal S512x4096 .f32) (x1 : Vec Ideal S4096x128 .f32) (x2 : Vec Ideal S512x128 .f32)
    (r : Fin 4096) (p : Fin 512) (q : Fin 128)
    (h0 : ∀ k : Fin 4096, x0 (ix2 p k) = A (ix2 r k)) (h1 : ∀ k : Fin 4096, x1 (ix2 k q) = T (ix2 k q))
    (h2 : x2 (ix2 p q) = B (ix2 r q)) :
    out2_4 x0 x1 x2 (ix2 p q) = arr (midK A (mat T) (mat B)) (ix2 r q) := by
  rw [out2_4_apply, h2]
  show _ = (∑ k : Fin 4096, A (ix2 r k) * T (ix2 k q)) - B (ix2 r q)
  exact congrArg (· - B (ix2 r q)) (Finset.sum_congr rfl fun k _ => by rw [h0 k, h1 k])

/-! ## The input blocks, read off the arrays -/

/-- Row p of the block of a at grid point t is row 512·t + p of a. -/
theorem iblk2_0_apply (c : Dev nD) (t : Fin cfg2.N) (p : Fin 512) (k : Fin 4096) :
    (iblk2 V c 0 t : Vec Ideal S512x4096 .f32) (ix2 p k)
      = (V c main_arg1 : S4096x4096.Idx → EReal) (ix2 ⟨512 * t.val + p.val, row_lt2 t p⟩ k) := by
  obtain ⟨e0, e1, -⟩ := idx2 t
  unfold iblk2
  rw [View.read_apply]
  show V c main_arg1 _ = V c main_arg1 _
  refine congrArg (V c main_arg1) (funext fun a => Fin.ext ?_)
  match a with
  | ⟨0, _⟩ => show win2_0.index t (0 : Fin 2) * 512 + 1 * p.val = 512 * t.val + p.val; omega
  | ⟨1, _⟩ => show win2_0.index t (1 : Fin 2) * 4096 + 1 * k.val = k.val; omega

/-- The whole-array window holds the whole of t at every grid point. -/
theorem iblk2_1_apply (c : Dev nD) (t : Fin cfg2.N) (k : Fin 4096) (q : Fin 128) :
    (iblk2 V c 1 t : Vec Ideal S4096x128 .f32) (ix2 k q)
      = (V c main_call0_v1_0 : S4096x128.Idx → EReal) (ix2 k q) := by
  obtain ⟨-, -, e0, e1, -⟩ := idx2 t
  unfold iblk2
  rw [View.read_apply]
  show V c main_call0_v1_0 _ = V c main_call0_v1_0 _
  refine congrArg (V c main_call0_v1_0) (funext fun a => Fin.ext ?_)
  match a with
  | ⟨0, _⟩ => show win2_1.index t (0 : Fin 2) * 4096 + 1 * k.val = k.val; omega
  | ⟨1, _⟩ => show win2_1.index t (1 : Fin 2) * 128 + 1 * q.val = q.val; omega

/-- Row p of the block of s at grid point t is row 512·t + p of s. -/
theorem iblk2_2_apply (c : Dev nD) (t : Fin cfg2.N) (p : Fin 512) (q : Fin 128) :
    (iblk2 V c 2 t : Vec Ideal S512x128 .f32) (ix2 p q)
      = (V c main_call0_v0 : S4096x128.Idx → EReal) (ix2 ⟨512 * t.val + p.val, row_lt2 t p⟩ q) := by
  obtain ⟨-, -, -, -, e0, e1, -⟩ := idx2 t
  unfold iblk2
  rw [View.read_apply]
  show V c main_call0_v0 _ = V c main_call0_v0 _
  refine congrArg (V c main_call0_v0) (funext fun a => Fin.ext ?_)
  match a with
  | ⟨0, _⟩ => show win2_2.index t (0 : Fin 2) * 512 + 1 * p.val = 512 * t.val + p.val; omega
  | ⟨1, _⟩ => show win2_2.index t (1 : Fin 2) * 128 + 1 * q.val = q.val; omega

/-- Row p of the block of the second pass's second result at grid point t is row 512·t + p of that array. -/
theorem iblk2_3_apply (c : Dev nD) (t : Fin cfg2.N) (p : Fin 512) (q : Fin 128) :
    (iblk2 V c 3 t : Vec Ideal S512x128 .f32) (ix2 p q)
      = (V c main_v0_1 : S4096x128.Idx → EReal) (ix2 ⟨512 * t.val + p.val, row_lt2 t p⟩ q) := by
  obtain ⟨-, -, -, -, -, -, e0, e1, -⟩ := idx2 t
  unfold iblk2
  rw [View.read_apply]
  show V c main_v0_1 _ = V c main_v0_1 _
  refine congrArg (V c main_v0_1) (funext fun a => Fin.ext ?_)
  match a with
  | ⟨0, _⟩ => show win2_3.index t (0 : Fin 2) * 512 + 1 * p.val = 512 * t.val + p.val; omega
  | ⟨1, _⟩ => show win2_3.index t (1 : Fin 2) * 128 + 1 * q.val = q.val; omega

/-! ## The block each grid point writes back -/

/-- Where entry (p, q) of the output block at grid point t sits in the array: row 512·t + p, column q. -/
theorem emb2_4 (t : Fin cfg2.N) (p : Fin 512) (q : Fin 128) :
    ((cfg2.win 4).blk t).view.emb (ix2 p q : S512x128.Idx) = (ix2 ⟨512 * t.val + p.val, row_lt2 t p⟩ q : S4096x128.Idx) := by
  obtain ⟨-, -, -, -, -, -, -, -, e0, e1, -⟩ := idx2 t
  refine funext fun a => Fin.ext ?_
  match a with
  | ⟨0, _⟩ => show win2_4.index t (0 : Fin 2) * 512 + 1 * p.val = 512 * t.val + p.val; omega
  | ⟨1, _⟩ => show win2_4.index t (1 : Fin 2) * 128 + 1 * q.val = q.val; omega

/-- Grid point t writes back rows 512·t … 512·t + 511 of a·t − s. -/
theorem flushed2_4_eq (c : Dev nD) (t : Fin cfg2.N) :
    (dat2 V c).flushed 4 t
      = ((cfg2.win 4).blk t).view.read (Elt Ideal)
          (arr (midK (V c main_arg1) (mat (V c main_call0_v1_0)) (mat (V c main_call0_v0)))) := by
  show (cfg2.win 4).cut (grid2.coords t) ((dat2 V c).after 4 t) = _
  rw [after2_4]
  refine funext fun (j : S512x128.Idx) => ?_
  obtain ⟨p, q, rfl⟩ : ∃ (p : Fin 512) (q : Fin 128), j = ix2 p q := ⟨j 0, j 1, eq_ix2 j⟩
  show out2_4 (iblk2 V c 0 t) (iblk2 V c 1 t) (iblk2 V c 2 t) (ix2 p q)
    = arr (midK (V c main_arg1) (mat (V c main_call0_v1_0)) (mat (V c main_call0_v0)))
        (((cfg2.win 4).blk t).view.emb (ix2 p q : S512x128.Idx))
  rw [emb2_4 t p q]
  exact out2_4_row (V c main_arg1) (V c main_call0_v1_0) (V c main_call0_v0) (iblk2 V c 0 t) (iblk2 V c 1 t) (iblk2 V c 2 t)
    ⟨512 * t.val + p.val, row_lt2 t p⟩ p q
    (fun k => iblk2_0_apply V c t p k) (fun k => iblk2_1_apply V c t k q) (iblk2_2_apply V c t p q)

/-! ## The eight row blocks cover the array -/

theorem mem_blk2_4 (t : Fin cfg2.N) (i : S4096x128.Idx) :
    i ∈ ((cfg2.win 4).blk t).view.set ↔ ∀ a : Fin 2, win2_4.index t a * S512x128.size a ≤ (i a).val ∧ (i a).val < win2_4.index t a * S512x128.size a + S512x128.size a := by
  show i ∈ ((View.whole main_v0_2).slice (win2_4.rect t)).set ↔ _
  rw [View.set_slice_whole, Rect.mem_set_unit]
  exact Iff.rfl

/-- Row r lies in the block of grid point r / 512. -/
theorem rows_cover2_4 (i : S4096x128.Idx) : ∃ t : Fin cfg2.N, (cfg2.win 4).flush t = true ∧ i ∈ ((cfg2.win 4).blk t).view.set := by
  have hi0 : (i 0).val < 4096 := (i 0).isLt
  have hi1 : (i 1).val < 128 := (i 1).isLt
  have hN : cfg2.N = 8 := N_2
  let t : Fin cfg2.N := ⟨(i 0).val / 512, by rw [hN]; omega⟩
  obtain ⟨-, -, -, -, -, -, -, -, e0, e1, -⟩ := idx2 t
  have ht : t.val = (i 0).val / 512 := rfl
  refine ⟨t, flush2_4 t, ?_⟩
  rw [mem_blk2_4]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 128 ≤ (i 1).val ∧ (i 1).val < win2_4.index t (1 : Fin 2) * 128 + 128; omega

end Val2a

/-! ## The array after the pass -/

/-- After the third pass its first result array holds a·t − s, for a, t, s the arrays the pass found. -/
theorem final2_4 (c : Dev nD) :
    (dat2 V c).arrAt 4 cfg2.N = arr (midK (V c main_arg1) (mat (V c main_call0_v1_0)) (mat (V c main_call0_v0))) :=
  (dat2 V c).arrAt_eq_of_cover 4 (arr (midK (V c main_arg1) (mat (V c main_call0_v1_0)) (mat (V c main_call0_v0))))
    (fun t _ => Val2a.flushed2_4_eq V c t) Val2a.rows_cover2_4

end Cert.KernelIdeal.Hand

end
-- ==== Proof.KI.Val2b.lean ====
/-
  The third pass's stacked result array: every grid point t writes rows 512·t … 512·t + 511 of
  the array whose slab 0 along the middle axis is the given low matrix and whose slab 1 is
  a · t1 − support; its adjacency block is those rows of a, its t1 block is t1 itself, and its
  support and low blocks are those rows of the two matrices; the eight blocks tile the 4096 rows.
-/
import proofs.«106258_g65609920414006_cont_sun_m_687_6_alg».proof.Proof.KI.Reg2
import proofs.«106258_g65609920414006_cont_sun_m_687_6_alg».proof.Proof.KI.Pay
import proofs.«106258_g65609920414006_cont_sun_m_687_6_alg».proof.Proof.Spec
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

namespace Val2b

theorem hz : (![0, 0] : Fin 2 → Nat) = fun _ => 0 := funext fun a => by fin_cases a <;> rfl

/-- The stacked array at an entry: slab 0 is the low matrix, slab 1 is a · t1 − s. -/
theorem cat_apply (lo : SO.Idx → EReal) (a : SA.Idx → EReal) (t1 s : SO.Idx → EReal) (r : Fin 4096) (u : Fin 2) (q : Fin 128) :
    cat (mat lo) (midK a (mat t1) (mat s)) (ix3 r u q)
      = if u.val = 0 then lo (ix2 r q) else (∑ k : Fin 4096, a (ix2 r k) * t1 (ix2 k q)) - s (ix2 r q) := rfl

/-- The stacked block the body leaves, at an entry: its slab 0 is the low block, its slab 1 is the product of the
    adjacency block with t1 minus the support block. -/
theorem out_apply (x0 : Vec Ideal S512x4096 .f32) (x1 : Vec Ideal S4096x128 .f32) (x2 x3 : Vec Ideal S512x128 .f32)
    (p : Fin 512) (u : Fin 2) (q : Fin 128) :
    out2_5 x0 x1 x2 x3 (ix3 p u q)
      = if u.val = 0 then x3 (ix2 p q) else (∑ k : Fin 4096, x0 (ix2 p k) * x1 (ix2 k q)) - x2 (ix2 p q) := by
  unfold out2_5
  simp only [View.ld_unit_zero (S := S512x4096) hz, View.ld_unit_zero (S := S4096x128) hz, View.ld_unit_zero (S := S512x128) hz]
  have hu2 : u.val < 2 := u.isLt
  by_cases hu : u.val = 0
  · rw [if_pos hu]
    rw [View.canon_cons_of_not_mem _ _ (y := (ix3 p u q : S512x2x128.Idx)) (by
      show (ix3 p u q : S512x2x128.Idx) ∉ r2_4.set
      rw [Rect.mem_set_unit]
      intro h
      have h1 : 1 ≤ u.val := (h 1).1
      omega)]
    have he : (ix3 p u q : S512x2x128.Idx) = r2_3.emb (ix3 p (0 : Fin 1) q) := by
      refine funext fun a => Fin.ext ?_
      match a with
      | ⟨0, _⟩ => show p.val = 0 + 1 * p.val; omega
      | ⟨1, _⟩ => show u.val = 0 + 1 * 0; omega
      | ⟨2, _⟩ => show q.val = 0 + 1 * q.val; omega
    rw [he, View.canon_cons_emb]
    exact k2_pay2_apply x3 p 0 q
  · rw [if_neg hu]
    have he : (ix3 p u q : S512x2x128.Idx) = r2_4.emb (ix3 p (0 : Fin 1) q) := by
      refine funext fun a => Fin.ext ?_
      match a with
      | ⟨0, _⟩ => show p.val = 0 + 1 * p.val; omega
      | ⟨1, _⟩ => show u.val = 1 + 1 * 0; omega
      | ⟨2, _⟩ => show q.val = 0 + 1 * q.val; omega
    rw [he, View.canon_cons_emb]
    exact k2_pay3_apply x0 x1 x2 p 0 q

/-- The block indices at grid point t: the adjacency, support, low and stacked blocks are row block t, t1's is (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- The adjacency block at point t is rows 512·t … of a. -/
theorem iblk_a (c : Dev nD) (t : Fin cfg2.N) (y : S512x4096.Idx) (k : S4096x4096.Idx)
    (hk0 : (k 0).val = 512 * t.val + (y 0).val) (hk1 : (k 1).val = (y 1).val) :
    (iblk2 V c 0 t : Vec Ideal S512x4096 .f32) y = (V c main_arg1 : S4096x4096.Idx → Elt Ideal .f32) k := by
  obtain ⟨e0, e1, -⟩ := idx t
  unfold iblk2
  rw [View.read_apply]
  show V c main_arg1 _ = V c main_arg1 _
  refine congrArg _ (funext fun a => Fin.ext ?_)
  match a with
  | ⟨0, _⟩ => show win2_0.index t 0 * 512 + 1 * (y 0).val = (k 0).val; rw [e0, hk0]; omega
  | ⟨1, _⟩ => show win2_0.index t 1 * 4096 + 1 * (y 1).val = (k 1).val; rw [e1, hk1]; omega

/-- The t1 block at every point is t1. -/
theorem iblk_t1 (c : Dev nD) (t : Fin cfg2.N) (y : S4096x128.Idx) :
    (iblk2 V c 1 t : Vec Ideal S4096x128 .f32) y = (V c main_call0_v1_0 : S4096x128.Idx → Elt Ideal .f32) y := by
  obtain ⟨-, -, e2, e3, -⟩ := idx t
  unfold iblk2
  rw [View.read_apply]
  show V c main_call0_v1_0 _ = V c main_call0_v1_0 _
  refine congrArg _ (funext fun a => Fin.ext ?_)
  match a with
  | ⟨0, _⟩ => show win2_1.index t 0 * 4096 + 1 * (y 0).val = (y 0).val; rw [e2]; omega
  | ⟨1, _⟩ => show win2_1.index t 1 * 128 + 1 * (y 1).val = (y 1).val; rw [e3]; omega

/-- The support block at point t is rows 512·t … of the support. -/
theorem iblk_s (c : Dev nD) (t : Fin cfg2.N) (y : S512x128.Idx) (k : S4096x128.Idx)
    (hk0 : (k 0).val = 512 * t.val + (y 0).val) (hk1 : (k 1).val = (y 1).val) :
    (iblk2 V c 2 t : Vec Ideal S512x128 .f32) y = (V c main_call0_v0 : S4096x128.Idx → Elt Ideal .f32) k := by
  obtain ⟨-, -, -, -, e4, e5, -⟩ := idx t
  unfold iblk2
  rw [View.read_apply]
  show V c main_call0_v0 _ = V c main_call0_v0 _
  refine congrArg _ (funext fun a => Fin.ext ?_)
  match a with
  | ⟨0, _⟩ => show win2_2.index t 0 * 512 + 1 * (y 0).val = (k 0).val; rw [e4, hk0]; omega
  | ⟨1, _⟩ => show win2_2.index t 1 * 128 + 1 * (y 1).val = (k 1).val; rw [e5, hk1]; omega

/-- The low block at point t is rows 512·t … of the low matrix. -/
theorem iblk_lo (c : Dev nD) (t : Fin cfg2.N) (y : S512x128.Idx) (k : S4096x128.Idx)
    (hk0 : (k 0).val = 512 * t.val + (y 0).val) (hk1 : (k 1).val = (y 1).val) :
    (iblk2 V c 3 t : Vec Ideal S512x128 .f32) y = (V c main_v0_1 : S4096x128.Idx → Elt Ideal .f32) k := by
  obtain ⟨-, -, -, -, -, -, e6, e7, -⟩ := idx t
  unfold iblk2
  rw [View.read_apply]
  show V c main_v0_1 _ = V c main_v0_1 _
  refine congrArg _ (funext fun a => Fin.ext ?_)
  match a with
  | ⟨0, _⟩ => show win2_3.index t 0 * 512 + 1 * (y 0).val = (k 0).val; rw [e6, hk0]; omega
  | ⟨1, _⟩ => show win2_3.index t 1 * 128 + 1 * (y 1).val = (k 1).val; rw [e7, hk1]; omega

/-- What point t writes back is its block of the stacked array. -/
theorem flushed_eq (c : Dev nD) (t : Fin cfg2.N) :
    (dat2 V c).flushed 5 t = ((cfg2.win 5).blk t).view.read (Elt Ideal)
      (cat (mat (V c main_v0_1)) (midK (V c main_arg1) (mat (V c main_call0_v1_0)) (mat (V c main_call0_v0)))) := by
  show (cfg2.win 5).cut (grid2.coords t) ((dat2 V c).after 5 t) = _
  rw [after2_5]
  refine funext fun (j : S512x2x128.Idx) => ?_
  obtain ⟨p, u, q, rfl⟩ : ∃ (p : Fin 512) (u : Fin 2) (q : Fin 128), j = ix3 p u q := ⟨j 0, j 1, j 2, eq_ix3 j⟩
  obtain ⟨-, -, -, -, -, -, -, -, e8, e9, e10⟩ := idx t
  have hN : cfg2.N = 8 := N_2
  have ht : t.val < cfg2.N := t.isLt
  have hp : p.val < 512 := p.isLt
  have hr : 512 * t.val + p.val < 4096 := by omega
  show out2_5 (iblk2 V c 0 t) (iblk2 V c 1 t) (iblk2 V c 2 t) (iblk2 V c 3 t) (ix3 p u q)
    = cat (mat (V c main_v0_1)) (midK (V c main_arg1) (mat (V c main_call0_v1_0)) (mat (V c main_call0_v0)))
        (((cfg2.win 5).blk t).view.emb (ix3 p u q))
  refine (out_apply (iblk2 V c 0 t) (iblk2 V c 1 t) (iblk2 V c 2 t) (iblk2 V c 3 t) p u q).trans ?_
  have he : ((cfg2.win 5).blk t).view.emb (ix3 p u q) = (ix3 (⟨512 * t.val + p.val, hr⟩ : Fin 4096) u q : S4096x2x128.Idx) := by
    refine funext fun a => Fin.ext ?_
    match a with
    | ⟨0, _⟩ => show win2_5.index t 0 * 512 + 1 * p.val = 512 * t.val + p.val; rw [e8]; omega
    | ⟨1, _⟩ => show win2_5.index t 1 * 2 + 1 * u.val = u.val; rw [e9]; omega
    | ⟨2, _⟩ => show win2_5.index t 2 * 128 + 1 * q.val = q.val; rw [e10]; omega
  rw [he]
  refine Eq.trans ?_ (cat_apply (V c main_v0_1) (V c main_arg1) (V c main_call0_v1_0) (V c main_call0_v0)
    (⟨512 * t.val + p.val, hr⟩ : Fin 4096) u q).symm
  by_cases hu : u.val = 0
  · rw [if_pos hu, if_pos hu]
    exact iblk_lo V c t (ix2 p q) (ix2 (⟨512 * t.val + p.val, hr⟩ : Fin 4096) q) rfl rfl
  · rw [if_neg hu, if_neg hu]
    refine congrArg₂ (fun s d => s - d) (Finset.sum_congr rfl fun k _ => ?_)
      (iblk_s V c t (ix2 p q) (ix2 (⟨512 * t.val + p.val, hr⟩ : Fin 4096) q) rfl rfl)
    rw [iblk_a V c t (ix2 p k) (ix2 (⟨512 * t.val + p.val, hr⟩ : Fin 4096) k) rfl rfl, iblk_t1 V c t (ix2 k q)]

/-- An index of the stacked array is in point t's block iff each coordinate is in the block's range. -/
theorem mem_blk (t : Fin cfg2.N) (i : S4096x2x128.Idx) :
    i ∈ ((cfg2.win 5).blk t).view.set ↔ ∀ a : Fin 3, win2_5.index t a * S512x2x128.size a ≤ (i a).val ∧ (i a).val < win2_5.index t a * S512x2x128.size a + S512x2x128.size a := by
  show i ∈ ((View.whole main_v0_0).slice (win2_5.rect t)).set ↔ _
  rw [View.set_slice_whole, Rect.mem_set_unit]
  exact Iff.rfl

/-- Row r is in the block of point r / 512. -/
theorem cover (i : S4096x2x128.Idx) : ∃ t : Fin cfg2.N, (cfg2.win 5).flush t = true ∧ i ∈ ((cfg2.win 5).blk t).view.set := by
  have hi0 : (i 0).val < 4096 := (i 0).isLt
  have hi1 : (i 1).val < 2 := (i 1).isLt
  have hi2 : (i 2).val < 128 := (i 2).isLt
  have hN : cfg2.N = 8 := N_2
  obtain ⟨t, ht⟩ : ∃ t : Fin cfg2.N, t.val = (i 0).val / 512 := ⟨⟨(i 0).val / 512, by omega⟩, rfl⟩
  obtain ⟨-, -, -, -, -, -, -, -, e8, e9, e10⟩ := idx t
  refine ⟨t, flush2_5 t, ?_⟩
  rw [mem_blk]
  intro a
  match a with
  | ⟨0, _⟩ => show win2_5.index t 0 * 512 ≤ (i 0).val ∧ (i 0).val < win2_5.index t 0 * 512 + 512; rw [e8, ht]; omega
  | ⟨1, _⟩ => show win2_5.index t 1 * 2 ≤ (i 1).val ∧ (i 1).val < win2_5.index t 1 * 2 + 2; rw [e9]; omega
  | ⟨2, _⟩ => show win2_5.index t 2 * 128 ≤ (i 2).val ∧ (i 2).val < win2_5.index t 2 * 128 + 128; rw [e10]; omega

end Val2b

/-- The third pass's stacked result array after the run: the low matrix and a · t1 − support, stacked. -/
theorem final2_5 (c : Dev nD) : (dat2 V c).arrAt 5 cfg2.N
    = cat (mat (V c main_v0_1)) (midK (V c main_arg1) (mat (V c main_call0_v1_0)) (mat (V c main_call0_v0))) :=
  (dat2 V c).arrAt_eq_of_cover 5
    (cat (mat (V c main_v0_1)) (midK (V c main_arg1) (mat (V c main_call0_v1_0)) (mat (V c main_call0_v0))))
    (fun t _ => Val2b.flushed_eq V c t) Val2b.cover

end Cert.KernelIdeal.Hand

end
-- ==== Proof.KI.Values.lean ====
/-
  The blocked evaluation's three results, read off its run over the extended reals. The first pass leaves
  s = max (x · w) 0; the second reads a and s and leaves a · s and a · s + s; the third reads a, a · s, s and
  a · s + s and leaves a · (a · s) − s and the stack of a · s + s with it. Between the passes every other array
  is as it was, so each pass finds the arrays the earlier ones left, and the arguments are the launch's throughout.
-/
import proofs.«106258_g65609920414006_cont_sun_m_687_6_alg».proof.Proof.KI.Run
import proofs.«106258_g65609920414006_cont_sun_m_687_6_alg».proof.Proof.KI.Val0
import proofs.«106258_g65609920414006_cont_sun_m_687_6_alg».proof.Proof.KI.Val1
import proofs.«106258_g65609920414006_cont_sun_m_687_6_alg».proof.Proof.KI.Val2a
import proofs.«106258_g65609920414006_cont_sun_m_687_6_alg».proof.Proof.KI.Val2b
import proofs.«106258_g65609920414006_cont_sun_m_687_6_alg».proof.Proof.Spec

noncomputable section

namespace Cert.KernelIdeal.Hand

open Cert.KernelIdeal Cert.KernelIdeal.Gen Cert.Spec
open Idealize.ShloMosaic Idealize.ShloMosaic.TcCoe Idealize.SL.Sem
open Idealize.ShloMosaic.Pipeline (Dat)

section Values

/-! ## Each pass's output arrays, from what the pass finds -/

/-- The second pass, finding a and s, leaves a · s. -/
theorem t_of (V : (c : Dev nD) → (b : Ref sig .tc) → Buf (Elt Ideal) ((c : Thread nD τ).loc b)) (c : Dev nD)
    (a : SA.Idx → EReal) (s : Mat) (ha : V c main_arg1 = a) (hs : V c main_call0_v0 = arr s) :
    (dat1 V c).arrAt 3 cfg1.N = arr (prod a s) := by
  rw [final1_3 V c, ha, hs, mat_arr]

/-- The second pass, finding a and s, leaves a · s + s. -/
theorem low_of (V : (c : Dev nD) → (b : Ref sig .tc) → Buf (Elt Ideal) ((c : Thread nD τ).loc b)) (c : Dev nD)
    (a : SA.Idx → EReal) (s : Mat) (ha : V c main_arg1 = a) (hs : V c main_call0_v0 = arr s) :
    (dat1 V c).arrAt 4 cfg1.N = arr (low a s) := by
  rw [final1_4 V c, ha, hs, mat_arr]

/-- The third pass, finding a, a · s and s, leaves a · (a · s) − s. -/
theorem mid_of (V : (c : Dev nD) → (b : Ref sig .tc) → Buf (Elt Ideal) ((c : Thread nD τ).loc b)) (c : Dev nD)
    (a : SA.Idx → EReal) (s : Mat) (ha : V c main_arg1 = a) (ht : V c main_call0_v1_0 = arr (prod a s))
    (hs : V c main_call0_v0 = arr s) :
    (dat2 V c).arrAt 4 cfg2.N = arr (mid a s) := by
  rw [final2_4 V c, ha, ht, hs, mat_arr, mat_arr, ← mid_eq_midK]

/-- The third pass, finding also a · s + s, leaves the stack of a · s + s and a · (a · s) − s. -/
theorem cat_of (V : (c : Dev nD) → (b : Ref sig .tc) → Buf (Elt Ideal) ((c : Thread nD τ).loc b)) (c : Dev nD)
    (a : SA.Idx → EReal) (s : Mat) (ha : V c main_arg1 = a) (ht : V c main_call0_v1_0 = arr (prod a s))
    (hs : V c main_call0_v0 = arr s) (hl : V c main_v0_1 = arr (low a s)) :
    (dat2 V c).arrAt 5 cfg2.N = cat (low a s) (mid a s) := by
  rw [final2_5 V c, ha, ht, hs, hl, mat_arr, mat_arr, mat_arr, ← mid_eq_midK]

/-! ## The arrays between the passes -/

variable (m : (ℓ : Loc nD τ sig) → Buf (Elt Ideal) ℓ) (ρ : Dev nD → PrngReg)

/-- After the first pass a is the launch's. -/
theorem Vb_arg1 (c : Dev nD) : Vb m ρ c main_arg1 = m ((c.tc : Thread nD τ).loc main_arg1) :=
  (Wb_of_ne m ρ c main_arg1 (by decide)).trans rfl

/-- After the first pass its result array is s. -/
theorem Vb_s (c : Dev nD) : Vb m ρ c main_call0_v0
    = arr (support (m ((c.tc : Thread nD τ).loc main_arg0)) (m ((c.tc : Thread nD τ).loc main_arg2))) :=
  (Wb_arr m ρ c 2).trans (final0_2 (Va m ρ) c)

/-- After the second pass a is still the launch's, -/
theorem Vc_arg1 (c : Dev nD) : Vc m ρ c main_arg1 = m ((c.tc : Thread nD τ).loc main_arg1) :=
  (Wc_of_ne m ρ c main_arg1 (by decide) (by decide)).trans (Vb_arg1 m ρ c)

/-- s is still s, -/
theorem Vc_s (c : Dev nD) : Vc m ρ c main_call0_v0
    = arr (support (m ((c.tc : Thread nD τ).loc main_arg0)) (m ((c.tc : Thread nD τ).loc main_arg2))) :=
  (Wc_of_ne m ρ c main_call0_v0 (by decide) (by decide)).trans (Vb_s m ρ c)

/-- the pass's first result array is a · s, -/
theorem Vc_t (c : Dev nD) : Vc m ρ c main_call0_v1_0
    = arr (prod (m ((c.tc : Thread nD τ).loc main_arg1))
        (support (m ((c.tc : Thread nD τ).loc main_arg0)) (m ((c.tc : Thread nD τ).loc main_arg2)))) :=
  (Wc_t m ρ c).trans (t_of (Vb m ρ) c _ _ (Vb_arg1 m ρ c) (Vb_s m ρ c))

/-- and its second is a · s + s. -/
theorem Vc_low (c : Dev nD) : Vc m ρ c main_v0_1
    = arr (low (m ((c.tc : Thread nD τ).loc main_arg1))
        (support (m ((c.tc : Thread nD τ).loc main_arg0)) (m ((c.tc : Thread nD τ).loc main_arg2)))) :=
  (Wc_low m ρ c).trans (low_of (Vb m ρ) c _ _ (Vb_arg1 m ρ c) (Vb_s m ρ c))

/-! ## The three results at the end -/

/-- The stacked result. -/
theorem Wd_v0_0 (c : Dev nD) : Wd m ρ c (Proc.devRef .tc main_v0_0)
    = cat (low (m ((c.tc : Thread nD τ).loc main_arg1))
            (support (m ((c.tc : Thread nD τ).loc main_arg0)) (m ((c.tc : Thread nD τ).loc main_arg2))))
          (mid (m ((c.tc : Thread nD τ).loc main_arg1))
            (support (m ((c.tc : Thread nD τ).loc main_arg0)) (m ((c.tc : Thread nD τ).loc main_arg2)))) :=
  (Wd_arr m ρ c 5).trans (cat_of (Vc m ρ) c _ _ (Vc_arg1 m ρ c) (Vc_t m ρ c) (Vc_s m ρ c) (Vc_low m ρ c))

/-- The result a · s + s: the third pass reads it and leaves it. -/
theorem Wd_v0_1 (c : Dev nD) : Wd m ρ c (Proc.devRef .tc main_v0_1)
    = arr (low (m ((c.tc : Thread nD τ).loc main_arg1))
        (support (m ((c.tc : Thread nD τ).loc main_arg0)) (m ((c.tc : Thread nD τ).loc main_arg2)))) :=
  (Wd_arr m ρ c 3).trans (((dat2 (Vc m ρ) c).arrAt_in 3 rfl _).trans ((A_eq2 (Vc m ρ) c 3).trans (Vc_low m ρ c)))

/-- The result a · (a · s) − s. -/
theorem Wd_v0_2 (c : Dev nD) : Wd m ρ c (Proc.devRef .tc main_v0_2)
    = arr (mid (m ((c.tc : Thread nD τ).loc main_arg1))
        (support (m ((c.tc : Thread nD τ).loc main_arg0)) (m ((c.tc : Thread nD τ).loc main_arg2)))) :=
  (Wd_arr m ρ c 4).trans (mid_of (Vc m ρ) c _ _ (Vc_arg1 m ρ c) (Vc_t m ρ c) (Vc_s m ρ c))

/-! ## The run -/

/-- Every weakly fair execution of the blocked evaluation over the extended reals ends with its three results at
    a · s + s and a · (a · s) − s stacked, a · s + s, and a · (a · s) − s, for s = max (x · w) 0 of the arguments
    the memory held at the start, and with the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v0_0)
        = cat (low (m ((c.tc : Thread nD τ).loc main_arg1)) (support (m ((c.tc : Thread nD τ).loc main_arg0)) (m ((c.tc : Thread nD τ).loc main_arg2))))
              (mid (m ((c.tc : Thread nD τ).loc main_arg1)) (support (m ((c.tc : Thread nD τ).loc main_arg0)) (m ((c.tc : Thread nD τ).loc main_arg2))))
      ∧ r.2.mem ((c.tc : Thread nD τ).loc main_v0_1)
        = arr (low (m ((c.tc : Thread nD τ).loc main_arg1)) (support (m ((c.tc : Thread nD τ).loc main_arg0)) (m ((c.tc : Thread nD τ).loc main_arg2))))
      ∧ r.2.mem ((c.tc : Thread nD τ).loc main_v0_2)
        = arr (mid (m ((c.tc : Thread nD τ).loc main_arg1)) (support (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (Wd_v0_0 m ρ c),
     (h c _ (mem_uc main_v0_1 (by decide))).trans (Wd_v0_1 m ρ c),
     (h c _ (mem_uc main_v0_2 (by decide))).trans (Wd_v0_2 m ρ c),
     (h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c)⟩) (run_all m ρ)

end Values

end Cert.KernelIdeal.Hand

end
-- ==== Proof.K.Reg0.lean ====
import proofs.«106258_g65609920414006_cont_sun_m_687_6_alg».proof.Proof.Gen.Kernel.Launch
import proofs.«106258_g65609920414006_cont_sun_m_687_6_alg».proof.Proof.Gen.Kernel.Skeleton
import proofs.«106258_g65609920414006_cont_sun_m_687_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The first kernel (feature block times weights, then the positive part), at the entry contents `V`

Windows: 0 the feature block (512 x 256, input), 1 the weights (256 x 128, input, the same block at every point),
2 the block of the result (512 x 128, output). -/

/-! ## The windows' blocks -/

/-- Window `w`'s block at grid point `t`: the window's rectangle at `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the window's block at every grid point, whether or not the block was brought
    in at that point: where it was not, the block index has not moved since the point before, and the body left the
    block in place. For any proof data whose array is `V`'s (`hA`) and whose body keeps the block (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, whose block index is constant: it is brought in at the first point only, and holds
    the whole weight matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_0 : Rect S512x256 := Rect.unit (s := S512x256) ![0, 0] S512x256.size inb_S512x256_S512x256_0_0
abbrev r0_1 : Rect S256x128 := Rect.unit (s := S256x128) ![0, 0] S256x128.size inb_S256x128_S256x128_0_0
abbrev r0_2 : Rect S512x128 := Rect.unit (s := S512x128) ![0, 0] S512x128.size inb_S512x128_S512x128_0_0

/-! ## What the body leaves in the output window's buffer -/

/-- Window 2's buffer after the body, as a function of the two input blocks: the one whole-buffer store of the
    positive part of the product. -/
def out0_2 (x0 : Vec F S512x256 .f32) (x1 : Vec F S256x128 .f32) : Vec F S512x128 .f32 :=
  View.canon [⟨r0_2, k0_pay1 (View.ld x0 r0_0) (View.ld x1 r0_1)⟩]

/-- The store's rectangle is the whole buffer, so every index is covered. -/
theorem cover0_2 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-! ## The body's triple -/

/-- The body on whole buffers, the inputs' reading `x0`, `x1` and the output's holding anything, runs to the
    continuation with the inputs' unchanged and the output's reading `out0_2 x0 x1`. The body also reads the output
    buffer before storing into it; that value is not used. -/
theorem sound_kernel0 (c : Dev nD) (E : Set ℕ) (i : grid0.Coords) (arg1 : Memref sig .tc .vmem S512x256 .f32) (harg1 : arg1.IsWhole) (arg2 : Memref sig .tc .vmem S256x128 .f32) (harg2 : arg2.IsWhole) (arg3 : Memref sig .tc .vmem S512x128 .f32) (harg3 : arg3.IsWhole)
    (x0 : Vec F S512x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at `out0_2` of the input blocks; the invariant says the rest of
    the core's state is untouched; nothing is owed; every window holds its array in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region's entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«106258_g65609920414006_cont_sun_m_687_6_alg».proof.Proof.Gen.Kernel.Launch
import proofs.«106258_g65609920414006_cont_sun_m_687_6_alg».proof.Proof.Gen.Kernel.Skeleton
import proofs.«106258_g65609920414006_cont_sun_m_687_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The second kernel (adjacency block times the whole support, and that product plus the support block), at the entry contents `V`

Windows: 0 the adjacency block (512 x 4096, input), 1 the support whole (4096 x 128, input, the same block at every
point), 2 the support block (512 x 128, input), 3 the block of the product (512 x 128, output), 4 the block of the
product plus the support block (512 x 128, output). Windows 1 and 2 read one array. -/

/-! ## The windows' blocks -/

/-- Window `w`'s block at grid point `t`: the window's rectangle at `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every grid point, whether or not the block was brought
    in at that point: where it was not, the block index has not moved since the point before, and the body left the
    block in place. For any proof data whose array is `V`'s (`hA`) and whose body keeps the block (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, whose block index is constant: it is brought in at the first point only, and holds
    the whole support at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_0 : Rect S512x4096 := Rect.unit (s := S512x4096) ![0, 0] S512x4096.size inb_S512x4096_S512x4096_0_0
abbrev r1_1 : Rect S4096x128 := Rect.unit (s := S4096x128) ![0, 0] S4096x128.size inb_S4096x128_S4096x128_0_0
abbrev r1_2 : Rect S512x128 := Rect.unit (s := S512x128) ![0, 0] S512x128.size inb_S512x128_S512x128_0_0

/-! ## What the body leaves in each output window's buffer -/

/-- Window 3's buffer after the body, as a function of input blocks 0 and 1: the one whole-buffer store of the product. -/
def out1_3 (x0 : Vec F S512x4096 .f32) (x1 : Vec F S4096x128 .f32) : Vec F S512x128 .f32 :=
  View.canon [⟨r1_2, k1_pay1 (View.ld x0 r1_0) (View.ld x1 r1_1)⟩]

/-- The store's rectangle is the whole buffer, so every index is covered. -/
theorem cover1_3 (p0 : Vec F S512x128 .f32) (y : S512x128.Idx) :
    ∃ pc ∈ ([⟨r1_2, p0⟩] : List (View.Piece (Elt F) S512x128 .f32)), y ∈ pc.1.set :=
  View.cover_of_tiled [⟨r1_2, p0⟩] S512x128.size (by rfl) y

/-- Window 4's buffer after the body, as a function of the three input blocks: the one whole-buffer store of the
    product plus the support block. -/
def out1_4 (x0 : Vec F S512x4096 .f32) (x1 : Vec F S4096x128 .f32) (x2 : Vec F S512x128 .f32) : Vec F S512x128 .f32 :=
  View.canon [⟨r1_2, k1_pay2 (View.ld x0 r1_0) (View.ld x1 r1_1) (View.ld x2 r1_2)⟩]

/-- The store's rectangle is the whole buffer, so every index is covered. -/
theorem cover1_4 (p0 : Vec F S512x128 .f32) (y : S512x128.Idx) :
    ∃ pc ∈ ([⟨r1_2, p0⟩] : List (View.Piece (Elt F) S512x128 .f32)), y ∈ pc.1.set :=
  View.cover_of_tiled [⟨r1_2, p0⟩] S512x128.size (by rfl) y

/-! ## The body's triple -/

/-- The body on whole buffers, the inputs' reading `x0`, `x1`, `x2` and the outputs' holding anything, runs to the
    continuation with the inputs' unchanged and the outputs' reading `out1_3`, `out1_4` of the inputs. The body also
    reads each output buffer before storing into it; those values are not used. -/
theorem sound_kernel1 (c : Dev nD) (E : Set ℕ) (i : grid1.Coords) (arg1 : Memref sig .tc .vmem S512x4096 .f32) (harg1 : arg1.IsWhole) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole)
    (x0 : Vec F S512x4096 .f32) (x1 : Vec F S4096x128 .f32) (x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__pass1_body i arg1 harg1 arg2 harg2 arg3 harg3 arg4 harg4 arg5 harg5) K := by
  simp only [cc1__pass1_body_eq_skeleton]; unfold cc1__pass1_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the second pipeline on core `c`: the arrays as the region finds them; after the body at point
    `t` each input's buffer at its block and each output's at `out1_3`, `out1_4` of the input blocks; the invariant
    says the rest of the core's state is untouched; nothing is owed. Windows 1 and 2 read the same array, so each holds
    one half of it (the two halves make the whole); every other window holds its array in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
  owed _ := 0

/-- The proof data's arrays are the region's entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one (each current buffer in full, whatever part of
    its array the window holds), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«106258_g65609920414006_cont_sun_m_687_6_alg».proof.Proof.Gen.Kernel.Launch
import proofs.«106258_g65609920414006_cont_sun_m_687_6_alg».proof.Proof.Gen.Kernel.Skeleton
import proofs.«106258_g65609920414006_cont_sun_m_687_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with long axes is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is at an arbitrary such `V`
variable (V : (c : Dev nD) → (b : Ref sig .tc) → Buf (Elt F) ((c : Thread nD τ).loc b))

/-! # The third kernel (adjacency block times the first product, minus the support block; both results stacked), at the entry contents `V`

Windows: 0 the adjacency block (512 x 4096, input), 1 the first product whole (4096 x 128, input, the same block at
every point), 2 the support block, 3 the block of the first result (both 512 x 128, inputs), 4 the block of the second
result (512 x 128, output), 5 the block of the stacked result (512 x 2 x 128, output, stored as two slabs). -/

/-! ## The windows' blocks -/

/-- Window `w`'s block at grid point `t`: the window's rectangle at `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds the window's block at every grid point, whether or not the block was brought
    in at that point: where it was not, the block index has not moved since the point before, and the body left the
    block in place. For any proof data whose array is `V`'s (`hA`) and whose body keeps the block (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, whose block index is constant: it is brought in at the first point only, and holds
    the whole first product at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The same for input window 3. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes -/

abbrev r2_0 : Rect S512x4096 := Rect.unit (s := S512x4096) ![0, 0] S512x4096.size inb_S512x4096_S512x4096_0_0
abbrev r2_1 : Rect S4096x128 := Rect.unit (s := S4096x128) ![0, 0] S4096x128.size inb_S4096x128_S4096x128_0_0
abbrev r2_2 : Rect S512x128 := Rect.unit (s := S512x128) ![0, 0] S512x128.size inb_S512x128_S512x128_0_0
/-- the slab `[:, 0, :]` of the stacked block, -/
abbrev r2_3 : Rect S512x2x128 := Rect.unit (s := S512x2x128) ![0, 0, 0] S512x1x128.size inb_S512x2x128_S512x1x128_0_0_0
/-- and the slab `[:, 1, :]`. -/
abbrev r2_4 : Rect S512x2x128 := Rect.unit (s := S512x2x128) ![0, 1, 0] S512x1x128.size inb_S512x2x128_S512x1x128_0_1_0

/-! ## What the body leaves in each output window's buffer -/

/-- Window 4's buffer after the body, as a function of input blocks 0, 1, 2: the one whole-buffer store of the product
    minus the support block. -/
def out2_4 (x0 : Vec F S512x4096 .f32) (x1 : Vec F S4096x128 .f32) (x2 : Vec F S512x128 .f32) : Vec F S512x128 .f32 :=
  View.canon [⟨r2_2, k2_pay1 (View.ld x0 r2_0) (View.ld x1 r2_1) (View.ld x2 r2_2)⟩]

/-- The store's rectangle is the whole buffer, so every index is covered. -/
theorem cover2_4 (p0 : Vec F S512x128 .f32) (y : S512x128.Idx) :
    ∃ pc ∈ ([⟨r2_2, p0⟩] : List (View.Piece (Elt F) S512x128 .f32)), y ∈ pc.1.set :=
  View.cover_of_tiled [⟨r2_2, p0⟩] S512x128.size (by rfl) y

/-- Window 5's buffer after the body, as a function of the four input blocks: its two stores, the later one first —
    slab 1 gets the second result (from blocks 0, 1, 2), slab 0 the first result (block 3). -/
def out2_5 (x0 : Vec F S512x4096 .f32) (x1 : Vec F S4096x128 .f32) (x2 : Vec F S512x128 .f32) (x3 : Vec F S512x128 .f32) : Vec F S512x2x128 .f32 :=
  View.canon [⟨r2_4, k2_pay3 (View.ld x0 r2_0) (View.ld x1 r2_1) (View.ld x2 r2_2)⟩,
    ⟨r2_3, k2_pay2 (View.ld x3 r2_2)⟩]

/-- The two slabs tile the buffer, so every index is covered. -/
theorem cover2_5 (p0 : Vec F S512x1x128 .f32) (p1 : Vec F S512x1x128 .f32) (y : S512x2x128.Idx) :
    ∃ pc ∈ ([⟨r2_4, p0⟩, ⟨r2_3, p1⟩] : List (View.Piece (Elt F) S512x2x128 .f32)), y ∈ pc.1.set :=
  View.cover_of_tiled [⟨r2_4, p0⟩, ⟨r2_3, p1⟩] S512x1x128.size (by rfl) y

/-! ## The body's triple -/

/-- The body on whole buffers, the inputs' reading `x0 … x3` and the outputs' holding anything, runs to the continuation
    with the inputs' unchanged and the outputs' reading `out2_4`, `out2_5` of the inputs. The body also reads each
    output rectangle before storing into it; those values are not used. -/
theorem sound_kernel2 (c : Dev nD) (E : Set ℕ) (i : grid2.Coords) (arg1 : Memref sig .tc .vmem S512x4096 .f32) (harg1 : arg1.IsWhole) (arg2 : Memref sig .tc .vmem S4096x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2x128 .f32) (harg6 : arg6.IsWhole)
    (x0 : Vec F S512x4096 .f32) (x1 : Vec F S4096x128 .f32) (x2 : Vec F S512x128 .f32) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2) ∗ owns (c : Thread nD τ) arg6 fullShare (out2_5 x0 x1 x2 x3)) -∗ K ⟨⟩))
      ⊢ wp frame (wpE (defs₀ (F := F)) Variants.none c none) E (cc2__pass2_body i arg1 harg1 arg2 harg2 arg3 harg3 arg4 harg4 arg5 harg5 arg6 harg6) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _ _)

/-! ## The pipeline's proof data -/

/-- The proof data of the third pipeline on core `c`: the arrays as the region finds them; after the body at point `t`
    each input's buffer at its block and each output's at `out2_4`, `out2_5` of the input blocks; the invariant says
    the rest of the core's state is untouched; nothing is owed; every window holds its array in full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region's entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Shared1.lean ====
/-
  The second pass hands ONE array, the support matrix, to two of its input windows (the whole matrix, and the
  row block of the point). Its five windows therefore sit on four distinct buffers. Entering the region, the
  core's unscoped buffers give the four buffers whole; the support buffer is split into two half shares, one per
  reading window. Leaving it, the two halves — both still at the contents they were entered at, an input array
  never being written — are joined again, and the two output arrays are put back at what the write-backs left.
-/
import proofs.«106258_g65609920414006_cont_sun_m_687_6_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The distinct buffers behind the second pass's five windows, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_call0_v0) ↦{fullShare} V main_call0_v0)
          ∗ (((c : Thread nD τ).loc main_call0_v1_0) ↦{fullShare} V main_call0_v1_0) ∗ (((c : Thread nD τ).loc main_v0_1) ↦{fullShare} V main_v0_1)) := by
  unfold Pipeline.arrBufs
  exact bigSep_eq_bigSepL_of_eq [main_arg1, main_call0_v0, main_call0_v1_0, main_v0_1] (by decide) (by decide) _

variable (dat : Dat τ (Elt F) Unit ℕ (UR sig nD τ) ℕ cfg1 c)
  (hq0 : dat.q 0 = fullShare) (hq1 : dat.q 1 = fullShare.left) (hq2 : dat.q 2 = fullShare.right)

include hq0 hq1 hq2 in
/-- The five windows' arrays one by one: the adjacency block's array whole, the support matrix at a half share
    for each of its two windows, the two outputs whole. -/
theorem arrays1_eq (Fn : (w : Fin cfg1.W) → Buf (Elt F) ((cfg1.win w).arr.view.loc (c : Thread nD τ))) :
    (dat.arrays Fn : sProp 𝕄)
      = iprop((((c : Thread nD τ).loc main_arg1) ↦{fullShare} Fn 0) ∗ (((c : Thread nD τ).loc main_call0_v0) ↦{fullShare.left} Fn 1)
          ∗ (((c : Thread nD τ).loc main_call0_v0) ↦{fullShare.right} Fn 2)
          ∗ (((c : Thread nD τ).loc main_call0_v1_0) ↦{fullShare} Fn 3) ∗ (((c : Thread nD τ).loc main_v0_1) ↦{fullShare} Fn 4)) := by
  have h0 : dat.share 0 = fullShare := by unfold Dat.share; rw [if_neg (by decide), hq0]
  have h1 : dat.share 1 = fullShare.left := by unfold Dat.share; rw [if_neg (by decide), hq1]
  have h2 : dat.share 2 = fullShare.right := by unfold Dat.share; rw [if_neg (by decide), hq2]
  have h3 : dat.share 3 = fullShare := by unfold Dat.share; rw [if_pos (by decide)]
  have h4 : dat.share 4 = fullShare := by unfold Dat.share; rw [if_pos (by decide)]
  unfold Dat.arrays
  rw [bigSep_W1, (arr_whole1 0).set_eq_univ, (arr_whole1 1).set_eq_univ, (arr_whole1 3).set_eq_univ,
    (arr_whole1 4).set_eq_univ, h0, h1, h2, h3, h4]

include hq0 hq1 hq2 in
/-- ENTRY: the core's unscoped buffers at contents `V` are the second pass's arrays at the proof data's entry
    contents — read off `V` — and the unscoped rest: the support buffer split into its two halves. -/
theorem entry1 (V : (b : Ref sig .tc) → Buf (Elt F) ((c : Thread nD τ).loc b))
    (hA : ∀ w, dat.A w = V (Pipeline.arrRef spec1 w)) :
    (unscopedBufs c V : sProp 𝕄) ⊢ iprop(dat.arrays dat.A ∗ Pipeline.unscopedRest spec1 c V) := by
  have hsp : (unscopedBufs c V : sProp 𝕄) = iprop(Pipeline.arrBufs spec1 c V ∗ Pipeline.unscopedRest spec1 c V) :=
    Pipeline.unscopedBufs_split₀ cfgs 1 winFacts₀1.arr_unscoped c V
  rw [hsp, arrBufs1_eq, arrays1_eq c dat hq0 hq1 hq2, hA 0, hA 1, hA 2, hA 3, hA 4]
  iintro ⟨⟨H0, Hs, H3, H4⟩, Hrest⟩
  have hS : ((((c : Thread nD τ).loc main_call0_v0) ↦{fullShare} V main_call0_v0 : sProp 𝕄))
      ⊢ iprop((((c : Thread nD τ).loc main_call0_v0) ↦{fullShare.left} V main_call0_v0) ∗ (((c : Thread nD τ).loc main_call0_v0) ↦{fullShare.right} V main_call0_v0)) :=
    (pointsTo_share (PosShare.mem_left_op_right fullShare)).1
  ihave Hs2 := hS $$ Hs
  icases Hs2 with ⟨Hl, Hr⟩
  isplitr [Hrest]
  · isplitl [H0]; · iexact H0
    isplitl [Hl]; · iexact Hl
    isplitl [Hr]; · iexact Hr
    isplitl [H3]; · iexact H3
    iexact H4
  · iexact Hrest

include hq0 hq1 hq2 in
/-- EXIT: the arrays at contents `Fn` and the unscoped rest at `V` are the core's unscoped buffers at any valuation
    `V'` that has the arrays at `Fn` and agrees with `V` off them: the two halves of the support buffer joined. -/
theorem exit1 (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  have hsp : (unscopedBufs c V' : sProp 𝕄) = iprop(Pipeline.arrBufs spec1 c V' ∗ Pipeline.unscopedRest spec1 c V') :=
    Pipeline.unscopedBufs_split₀ cfgs 1 winFacts₀1.arr_unscoped c V'
  rw [hsp, arrBufs1_eq, arrays1_eq c dat hq0 hq1 hq2, hF 0, hF 1, hF 2, hF 3, hF 4]
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [hr]
  iintro ⟨⟨H0, Hl, Hr, H3, H4⟩, Hrest⟩
  have hS : (iprop((((c : Thread nD τ).loc main_call0_v0) ↦{fullShare.left} V' main_call0_v0) ∗ (((c : Thread nD τ).loc main_call0_v0) ↦{fullShare.right} V' main_call0_v0)) : sProp 𝕄)
      ⊢ (((c : Thread nD τ).loc main_call0_v0) ↦{fullShare} V' main_call0_v0) :=
    (pointsTo_share (PosShare.mem_left_op_right fullShare)).2
  ihave Hs := hS $$ [Hl Hr]
  · isplitl [Hl]; · iexact Hl
    iexact Hr
  isplitr [Hrest]
  · isplitl [H0]; · iexact H0
    isplitl [Hs]; · iexact Hs
    isplitl [H3]; · iexact H3
    iexact H4
  · iexact Hrest

end Cert.Kernel.Hand
end
-- ==== Proof.K.Run.lean ====
/-
  The run of the whole program: three passes in a row, no host operation between them. The core's unscoped
  buffers are followed from the launch through the passes: each pass leaves its input arrays as it found them and
  each output array at what the write-backs of its blocks left, every other buffer untouched. The second pass reads
  the support matrix through two windows and so holds it at two half shares (Shared1.lean). At the end every
  unscoped buffer is read back against the last contents: the arguments are the launch's, and the three results are
  the last pass's (and the second pass's) output arrays.
-/
import proofs.«106258_g65609920414006_cont_sun_m_687_6_alg».proof.Proof.Gen.Kernel.Launch
import proofs.«106258_g65609920414006_cont_sun_m_687_6_alg».proof.Proof.Gen.Kernel.Skeleton
import proofs.«106258_g65609920414006_cont_sun_m_687_6_alg».proof.Proof.Gen.Kernel.Points
import proofs.«106258_g65609920414006_cont_sun_m_687_6_alg».proof.Proof.K.Reg0
import proofs.«106258_g65609920414006_cont_sun_m_687_6_alg».proof.Proof.K.Reg1
import proofs.«106258_g65609920414006_cont_sun_m_687_6_alg».proof.Proof.K.Reg2
import proofs.«106258_g65609920414006_cont_sun_m_687_6_alg».proof.Proof.K.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first pass's entry). -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b

/-- After the first pass: its arrays at what the pipeline leaves, every other buffer as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the second pass: its two output arrays at what the pipeline leaves, every other buffer as entered (the
    windows' arrays are not distinct here, so the two outputs are named). -/
def Wc (c : Dev nD) : Valuation τ sig (Elt F) :=
  Function.update (Function.update (Wb m ρ c) (Proc.devRef .tc main_call0_v1_0)
    ((dat1 (Vb m ρ) c).arrAt 3 cfg1.N : Buf (Elt F) ((c : Thread nD τ).loc main_call0_v1_0)))
    (Proc.devRef .tc main_v0_1) ((dat1 (Vb m ρ) c).arrAt 4 cfg1.N : Buf (Elt F) ((c : Thread nD τ).loc main_v0_1))
theorem Wc_t (c : Dev nD) : Wc m ρ c (Proc.devRef .tc main_call0_v1_0) = (dat1 (Vb m ρ) c).arrAt 3 cfg1.N := by
  unfold Wc; rw [Function.update_of_ne (StableHlo.devRef_ne_of_ne (by decide)), Function.update_self]
theorem Wc_low (c : Dev nD) : Wc m ρ c (Proc.devRef .tc main_v0_1) = (dat1 (Vb m ρ) c).arrAt 4 cfg1.N := by
  unfold Wc; rw [Function.update_self]
theorem Wc_of_ne (c : Dev nD) (b : Ref sig .tc) (h1 : b ≠ main_call0_v1_0) (h2 : b ≠ main_v0_1) :
    Wc m ρ c (Proc.devRef .tc b) = Wb m ρ c (Proc.devRef .tc b) := by
  unfold Wc; rw [Function.update_of_ne (StableHlo.devRef_ne_of_ne h2), Function.update_of_ne (StableHlo.devRef_ne_of_ne h1)]
abbrev Vc : (c : Dev nD) → (b : Ref sig .tc) → Buf (Elt F) ((c : Thread nD τ).loc b) := fun c b => Wc m ρ c b
theorem hF1 (c : Dev nD) : ∀ w : Fin cfg1.W, (dat1 (Vb m ρ) c).arrAt w cfg1.N = Vc m ρ c (Pipeline.arrRef spec1 w)
  | ⟨0, _⟩ => ((dat1 (Vb m ρ) c).arrAt_in 0 rfl _).trans ((A_eq1 (Vb m ρ) c 0).trans (Wc_of_ne m ρ c main_arg1 (by decide) (by decide)).symm)
  | ⟨1, _⟩ => ((dat1 (Vb m ρ) c).arrAt_in 1 rfl _).trans ((A_eq1 (Vb m ρ) c 1).trans (Wc_of_ne m ρ c main_call0_v0 (by decide) (by decide)).symm)
  | ⟨2, _⟩ => ((dat1 (Vb m ρ) c).arrAt_in 2 rfl _).trans ((A_eq1 (Vb m ρ) c 2).trans (Wc_of_ne m ρ c main_call0_v0 (by decide) (by decide)).symm)
  | ⟨3, _⟩ => (Wc_t m ρ c).symm
  | ⟨4, _⟩ => (Wc_low m ρ c).symm
  | ⟨_ + 5, h⟩ => absurd h (Nat.not_lt.2 (Nat.le_add_left _ _))
theorem hrest1 (c : Dev nD) : ∀ b, b ∉ Finset.univ.image (Pipeline.arrRef spec1) → Vc m ρ c b = Vb m ρ c b :=
  fun b hb => Wc_of_ne m ρ c b (fun e => hb (Finset.mem_image.mpr ⟨3, Finset.mem_univ _, e.symm⟩))
    (fun e => hb (Finset.mem_image.mpr ⟨4, Finset.mem_univ _, e.symm⟩))

/-- After the third pass. -/
def Wd (c : Dev nD) : Valuation τ sig (Elt F) :=
  Pipeline.withArrays spec2 c (Wc m ρ c) fun w => (dat2 (Vc m ρ) c).arrAt w cfg2.N
theorem Wd_arr (c : Dev nD) (w : Fin cfg2.W) :
    Wd m ρ c (Proc.devRef .tc (Pipeline.arrRef spec2 w)) = (dat2 (Vc m ρ) c).arrAt w cfg2.N := by
  unfold Wd; exact Pipeline.withArrays_arr spec2 launch2.win.arr_inj c _ _ w
theorem Wd_of_ne (c : Dev nD) (b : Ref sig .tc) (hb : ∀ w, Pipeline.arrRef spec2 w ≠ b) :
    Wd m ρ c (Proc.devRef .tc b) = Wc m ρ c (Proc.devRef .tc b) := by
  unfold Wd; exact Pipeline.withArrays_of_ne spec2 c _ _ b hb
abbrev Vd : (c : Dev nD) → (b : Ref sig .tc) → Buf (Elt F) ((c : Thread nD τ).loc b) := fun c b => Wd m ρ c b
theorem hF2 (c : Dev nD) (w : Fin cfg2.W) : (dat2 (Vc m ρ) c).arrAt w cfg2.N = Vd m ρ c (Pipeline.arrRef spec2 w) :=
  (Wd_arr m ρ c w).symm
theorem hrest2 (c : Dev nD) : ∀ b, b ∉ Finset.univ.image (Pipeline.arrRef spec2) → Vd m ρ c b = Vc m ρ c b :=
  fun b hb => Wd_of_ne m ρ c b fun w e => hb (Finset.mem_image.mpr ⟨w, Finset.mem_univ _, e⟩)

/-! ### The arguments end as launched: every pass reads them through input windows or bypasses them -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := Wd_of_ne m ρ c main_arg0 (by decide)
    _ = Wb m ρ c (Proc.devRef .tc main_arg0) := Wc_of_ne m ρ c main_arg0 (by decide) (by decide)
    _ = Wa m ρ c (Proc.devRef .tc main_arg0) := (Wb_arr m ρ c 0).trans (((dat0 (Va m ρ) c).arrAt_in 0 rfl _).trans (A_eq0 (Va m ρ) c 0))
    _ = m ((c : Thread nD τ).loc main_arg0) := rfl
theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := (Wd_arr m ρ c 0).trans (((dat2 (Vc m ρ) c).arrAt_in 0 rfl _).trans (A_eq2 (Vc m ρ) c 0))
    _ = Wb m ρ c (Proc.devRef .tc main_arg1) := Wc_of_ne m ρ c main_arg1 (by decide) (by decide)
    _ = Wa m ρ c (Proc.devRef .tc main_arg1) := Wb_of_ne m ρ c main_arg1 (by decide)
    _ = m ((c : Thread nD τ).loc main_arg1) := rfl
theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := Wd_of_ne m ρ c main_arg2 (by decide)
    _ = Wb m ρ c (Proc.devRef .tc main_arg2) := Wc_of_ne m ρ c main_arg2 (by decide) (by decide)
    _ = Wa m ρ c (Proc.devRef .tc main_arg2) := (Wb_arr m ρ c 1).trans (((dat0 (Va m ρ) c).arrAt_in 1 rfl _).trans (A_eq0 (Va m ρ) c 1))
    _ = m ((c : Thread nD τ).loc main_arg2) := rfl

/-! ## The proof data family and the thread state -/

/-- No pass has a prefetched table. -/
abbrev adm : (p : Fin 3) → (pcfgs (F := F) p).Adm := fun p => (cfgs p).toPCfg_adm
/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
  | ⟨2, _⟩ => fun c => dat2 (Vc m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every pass: the core's generator register at some state and its `owes`, at nothing. -/
abbrev R (c : Dev nD) : sProp 𝕄 := iprop((∃ r, prngReg c r) ∗ ∃ W, owes (c : Thread nD τ) (0 : CellTallies nD τ sig Unit) W)
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (Wd m ρ c) ∗ ∃ r, prngReg c r)

/-! ## The passes as segments -/

set_option backward.isDefEq.respectTransparency.types false in
/-- Pass 0 as a segment of the run: entered from every unscoped buffer at `Wa`, left at `Wb`. Its arrays are
    split out of the unscoped buffers at the entry and put back at the exit at what the write-backs left; the
    generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment of the run: entered from every unscoped buffer at `Wb`, left at `Wc`. Its arrays are
    split out of the unscoped buffers at the entry and put back at the exit at what the write-backs left; the
    generator register goes into the pipeline's invariant and comes back; nothing is owed. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := entry1 (F := F) c (pdats m ρ 1 c) rfl rfl rfl (Vb m ρ c) (A_eq1 (Vb m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) c (pdats m ρ 1 c) rfl rfl rfl (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment of the run: entered from every unscoped buffer at `Wc`, left at `Wd`. Its arrays are
    split out of the unscoped buffers at the entry and put back at the exit at what the write-backs left; the
    generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc m ρ) c).loose
  hwaits := Pipeline.hwaits_of_owed_zero _ _ _ _ L lv 2 fun _ _ => rfl
  pre c := iprop(StableHlo.held (c : Thread nD τ) (Pipeline.ucRefs τ sig) (Wc m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vc m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vc m ρ c) (Vd m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ), .region (reg2 m ρ) ]
/-- The program is the run of the three segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds each unscoped buffer at the last contents `Wd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Wd_main_arg0 m ρ c),
     (h c _ (mem_uc main_arg1 (by decide))).trans (Wd_main_arg1 m ρ c),
     (h c _ (mem_uc main_arg2 (by decide))).trans (Wd_main_arg2 m ρ c)⟩) (run_all m ρ)

end Cert.Kernel.Hand
end
-- ==== Proof.lean ====
/-
  The certificate assembled. With x : 4096×256, a : 4096×4096, w : 256×128 and s = max (x · w) 0, the blocked
  evaluation computes, in three passes over eight blocks of 512 rows, first s, then a · s and a · s + s, then
  a · (a · s) − s and the stack of a · s + s with it; the dense evaluation computes (a + I) · s, (a · a − I) · s
  and their stack, I the identity matrix. All three programs run to their ends and leave their arguments as they
  were, and no operation was replaced in passing to the extended reals. Over the extended reals, from memories
  agreeing on the three arguments, the results are equal: the precondition makes every entry of x, a and w a real
  number, hence every entry of s, and on real entries the product distributes over the sum with I and the triple
  sum Σ_k (Σ_l a(i,l) · a(l,k)) · s(k,j) re-associates to Σ_l a(i,l) · (Σ_k a(l,k) · s(k,j)). Finiteness is used
  there and nowhere else: with an infinite entry the extended reals' product does not distribute.
-/
import proofs.«106258_g65609920414006_cont_sun_m_687_6_alg».proof.Defs
import proofs.«106258_g65609920414006_cont_sun_m_687_6_alg».proof.Proof.Gen.Kernel
import proofs.«106258_g65609920414006_cont_sun_m_687_6_alg».proof.Proof.Gen.KernelIdeal
import proofs.«106258_g65609920414006_cont_sun_m_687_6_alg».proof.Proof.Gen.ReferenceIdeal
import proofs.«106258_g65609920414006_cont_sun_m_687_6_alg».proof.Proof.Gen.Pre_finite_inputs
import proofs.«106258_g65609920414006_cont_sun_m_687_6_alg».proof.Proof.Spec
import proofs.«106258_g65609920414006_cont_sun_m_687_6_alg».proof.Proof.Algebra
import proofs.«106258_g65609920414006_cont_sun_m_687_6_alg».proof.Proof.Finite
import proofs.«106258_g65609920414006_cont_sun_m_687_6_alg».proof.Proof.RefValue
import proofs.«106258_g65609920414006_cont_sun_m_687_6_alg».proof.Proof.RefFrame
import proofs.«106258_g65609920414006_cont_sun_m_687_6_alg».proof.Proof.KI.Values
import proofs.«106258_g65609920414006_cont_sun_m_687_6_alg».proof.Proof.K.Run
import Idealize.ShloMosaic.Adequacy
import Idealize.ShloMosaic.Init

noncomputable section

namespace Cert.Proof

open Idealize.ShloMosaic Idealize.ShloMosaic.TcCoe Idealize.SL.Sem Cert.Spec

/-- The blocked evaluation at the bit-exact values runs to its end and leaves its arguments as they were. -/
theorem frame_p : Cert.frame_Kernel := fun m ρ _ => Cert.Kernel.Hand.frame (F := Bits) m ρ

/-- So does the blocked evaluation over the extended reals. -/
theorem frame_pi : Cert.frame_KernelIdeal := fun m ρ _ => Cert.KernelIdeal.Hand.frame (F := Ideal) m ρ

/-- Over the extended reals, on arguments with real entries, the blocked evaluation's three results are the
    dense evaluation's: (a + I) · s = a · s + s and (a · a − I) · s = a · (a · s) − s entry by entry. -/
theorem algebraic : Cert.algebraic_KernelIdeal_ReferenceIdeal := by
  intro m ρ m' ρ' hpre hagree
  refine ⟨_, _, _, Cert.KernelIdeal.Hand.kernel_run m ρ, ?_⟩
  refine (θ_run Cert.ReferenceIdeal.defs _ _).mono (fun _ h c => ?_) (Cert.ReferenceIdeal.RefValue.run_spec m' ρ')
  obtain ⟨h15, h9, h12, h0, h1, h2⟩ := h c
  obtain ⟨e0, e1, e2⟩ := hagree c
  obtain ⟨fx, fa, fw⟩ := fin_of_pre _ _ _ (hpre c)
  have fs := support_fin _ _ fx fw
  have el := lowR_eq_low _ _ fa fs
  have em := midR_eq_mid _ _ fa fs
  rw [e0, e1, e2] at h15 h9 h12
  rw [el] at h15 h9
  rw [em] at h15 h12
  exact ⟨h15, h9, h12, h0, h1, h2⟩

/-- Everything the certificate claims. -/
theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.RefValue.frame_ri, trivial, algebraic⟩

end Cert.Proof

end
